-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x512x256 : Shape := ⟨3, ![32, 512, 256]⟩
abbrev S128x1024 : Shape := ⟨2, ![128, 1024]⟩
abbrev S128 : Shape := ⟨1, ![128]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x512x256 : S_.BroadcastsInDim S32x512x256 (![] : Fin 0 → Fin S32x512x256.rank)
  reducesTo_S32x512x256_S_d0_1_2 : S32x512x256.ReducesTo [0, 1, 2] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x1024 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S32x2048x256 .f32) (main_arg1 : FVec F S32x512x256 .f32) (main_arg2 : FVec F S128x1024 .f32) (main_arg3 : FVec F S128 .f32) (main_arg4 : FVec F S128x1024 .f32) (main_arg5 : FVec F S128 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x512x256 .f32 := Host.absf main_arg1
  let main_cst_0 : FVec F S_ .f32 := constant S_ .f32 0x7F800000#32
  let main_v5 : FVec F S32x512x256 .f32 := broadcastInDim S32x512x256 ![] bcast_S_S32x512x256 main_cst_0
  let main_v6 : IVec S32x512x256 1 := cmpf .olt main_v4 main_v5
  let main_c_1 : IVec S_ 1 := constantI S_ 1 1#1
  let main_v7 : IVec S_ 1 := (fun x v => Host.reduce IntOp.andi x v reducesTo_S32x512x256_S_d0_1_2 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S32x2048x256 : Shape := ⟨3, ![32, 2048, 256]⟩
abbrev S32x512x256 : Shape := ⟨3, ![32, 512, 256]⟩
abbrev S128x1024 : Shape := ⟨2, ![128, 1024]⟩
abbrev S128 : Shape := ⟨1, ![128]⟩
abbrev S1x128 : Shape := ⟨2, ![1, 128]⟩
abbrev S32x2048x128 : Shape := ⟨3, ![32, 2048, 128]⟩
abbrev S32x512x128 : Shape := ⟨3, ![32, 512, 128]⟩
abbrev S1x2048x256 : Shape := ⟨3, ![1, 2048, 256]⟩
abbrev S1x512x256 : Shape := ⟨3, ![1, 512, 256]⟩
abbrev S1x2048x128 : Shape := ⟨3, ![1, 2048, 128]⟩
abbrev S1x512x128 : Shape := ⟨3, ![1, 512, 128]⟩
abbrev S2048x256 : Shape := ⟨2, ![2048, 256]⟩
abbrev S512x256 : Shape := ⟨2, ![512, 256]⟩
abbrev S256x512 : Shape := ⟨2, ![256, 512]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S512x2048 : Shape := ⟨2, ![512, 2048]⟩
abbrev S128x256 : Shape := ⟨2, ![128, 256]⟩
abbrev S256x128 : Shape := ⟨2, ![256, 128]⟩
abbrev S2048x128 : Shape := ⟨2, ![2048, 128]⟩
abbrev S512x128 : Shape := ⟨2, ![512, 128]⟩

abbrev nBuf : Space → Nat
  | .hbm => 10
  | .vmem => 12
  | .smem => 0
  | _ => 0

abbrev bufTy : (tb : Table) → Fin (tcTables nBuf tb) → BufTy
  | .hbm, ⟨0, _⟩ => ⟨S32x2048x256, .f32⟩
  | .hbm, ⟨1, _⟩ => ⟨S32x512x256, .f32⟩
  | .hbm, ⟨2, _⟩ => ⟨S128x1024, .f32⟩
  | .hbm, ⟨3, _⟩ => ⟨S128, .f32⟩
  | .hbm, ⟨4, _⟩ => ⟨S128x1024, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S32x2048x128, .f32⟩
  | .hbm, ⟨9, _⟩ => ⟨S32x512x128, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .f32⟩
  | .local _ .vmem, ⟨3, _⟩ => ⟨S1x512x256, .f32⟩
  | .local _ .vmem, ⟨4, _⟩ => ⟨S128x1024, .f32⟩
  | .local _ .vmem, ⟨5, _⟩ => ⟨S1x128, .f32⟩
  | .local _ .vmem, ⟨6, _⟩ => ⟨S128x1024, .f32⟩
  | .local _ .vmem, ⟨7, _⟩ => ⟨S1x128, .f32⟩
  | .local _ .vmem, ⟨8, _⟩ => ⟨S1x2048x128, .f32⟩
  | .local _ .vmem, ⟨9, _⟩ => ⟨S1x2048x128, .f32⟩
  | .local _ .vmem, ⟨10, _⟩ => ⟨S1x512x128, .f32⟩
  | .local _ .vmem, ⟨11, _⟩ => ⟨S1x512x128, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  transposes_S512x256_p1_0_S256x512 : S512x256.Transposes [1, 0] S256x512
  reduces_S2048x512_S2048 : S2048x512.Reduces [1] S2048
  shapeCasts_S2048_S2048x1 : S2048.ShapeCasts S2048x1
  broadcasts_S2048x1_S2048x512 : S2048x1.Broadcasts S2048x512
  reduces_S2048x512_S512 : S2048x512.Reduces [0] S512
  shapeCasts_S512_S1x512 : S512.ShapeCasts S1x512
  broadcasts_S1x512_S2048x512 : S1x512.Broadcasts S2048x512
  transposes_S2048x512_p1_0_S512x2048 : S2048x512.Transposes [1, 0] S512x2048
  inb_S128x1024_S128x1024_0_0 : ∀ a, (![0, 0] : Fin 2 → Nat) a + S128x1024.size a ≤ S128x1024.size a
  h_S128x1024 : 0 < S128x1024.numel
  slices_S128x1024_o0_0_S128x256 : S128x1024.Slices ![0, 0] S128x256
  slices_S128x1024_o0_256_S128x256 : S128x1024.Slices ![0, 256] S128x256
  slices_S128x1024_o0_512_S128x256 : S128x1024.Slices ![0, 512] S128x256
  slices_S128x1024_o0_768_S128x256 : S128x1024.Slices ![0, 768] S128x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S512x2048_S2048x256_S512x256_1_0_0_1_n_n_wf : DotDims.WF S512x2048 S2048x256 S512x256 [1] [0] [0] [1] [] []
  dot_S2048x256_S256x128_S2048x128_1_0_0_1_n_n_wf : DotDims.WF S2048x256 S256x128 S2048x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x256.size a
  hwx0_0 : ∀ i : grid0.Coords, EltTy.bits .f32 = 32 ∨ (Rect.block (s := S32x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x128.size a ≤ S32x2048x128.size a
  hwx0_6 : ∀ i : grid0.Coords, EltTy.bits .f32 = 32 ∨ (Rect.block (s := S32x2048x128) S1x2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S32x512x128.size a
  hwx0_7 : ∀ i : grid0.Coords, EltTy.bits .f32 = 32 ∨ (Rect.block (s := S32x512x128) S1x512x128.size (cc0_transform_7 i) (hinb0_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1x2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S32x512x256 : Shape := ⟨3, ![32, 512, 256]⟩
abbrev S128x1024 : Shape := ⟨2, ![128, 1024]⟩
abbrev S128 : Shape := ⟨1, ![128]⟩
abbrev S32x2048x512 : Shape := ⟨3, ![32, 2048, 512]⟩
abbrev S_ : Shape := ⟨0, ![]⟩
abbrev S32x2048 : Shape := ⟨2, ![32, 2048]⟩
abbrev S32x2048x1 : Shape := ⟨3, ![32, 2048, 1]⟩
abbrev S32x512 : Shape := ⟨2, ![32, 512]⟩
abbrev S32x1x512 : Shape := ⟨3, ![32, 1, 512]⟩
abbrev S32x2048x1024 : Shape := ⟨3, ![32, 2048, 1024]⟩
abbrev S32x512x1024 : Shape := ⟨3, ![32, 512, 1024]⟩
abbrev S32x2048x128 : Shape := ⟨3, ![32, 2048, 128]⟩
abbrev S1x1x128 : Shape := ⟨3, ![1, 1, 128]⟩
abbrev S32x512x128 : Shape := ⟨3, ![32, 512, 128]⟩

abbrev nBuf : Space → Nat
  | .hbm => 57
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x512x256, .f32⟩
  | .hbm, ⟨2, _⟩ => ⟨S128x1024, .f32⟩
  | .hbm, ⟨3, _⟩ => ⟨S128, .f32⟩
  | .hbm, ⟨4, _⟩ => ⟨S128x1024, .f32⟩
  | .hbm, ⟨5, _⟩ => ⟨S128, .f32⟩
  | .hbm, ⟨6, _⟩ => ⟨S32x2048x512, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x512, .f32⟩
  | .hbm, ⟨14, _⟩ => ⟨S32x2048x512, .f32⟩
  | .hbm, ⟨15, _⟩ => ⟨S32x2048x512, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x512, .f32⟩
  | .hbm, ⟨20, _⟩ => ⟨S32x2048x512, .f32⟩
  | .hbm, ⟨21, _⟩ => ⟨S_, .f32⟩
  | .hbm, ⟨22, _⟩ => ⟨S32x512, .f32⟩
  | .hbm, ⟨23, _⟩ => ⟨S_, .f32⟩
  | .hbm, ⟨24, _⟩ => ⟨S32x512, .f32⟩
  | .hbm, ⟨25, _⟩ => ⟨S32x512, .f32⟩
  | .hbm, ⟨26, _⟩ => ⟨S32x1x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S_, .f32⟩
  | .hbm, ⟨31, _⟩ => ⟨S32x512, .f32⟩
  | .hbm, ⟨32, _⟩ => ⟨S32x1x512, .f32⟩
  | .hbm, ⟨33, _⟩ => ⟨S32x2048x512, .f32⟩
  | .hbm, ⟨34, _⟩ => ⟨S32x2048x512, .f32⟩
  | .hbm, ⟨35, _⟩ => ⟨S32x2048x256, .f32⟩
  | .hbm, ⟨36, _⟩ => ⟨S32x512x256, .f32⟩
  | .hbm, ⟨37, _⟩ => ⟨S32x2048x256, .f32⟩
  | .hbm, ⟨38, _⟩ => ⟨S32x2048x256, .f32⟩
  | .hbm, ⟨39, _⟩ => ⟨S32x2048x1024, .f32⟩
  | .hbm, ⟨40, _⟩ => ⟨S32x512x256, .f32⟩
  | .hbm, ⟨41, _⟩ => ⟨S32x512x256, .f32⟩
  | .hbm, ⟨42, _⟩ => ⟨S32x512x1024, .f32⟩
  | .hbm, ⟨43, _⟩ => ⟨S32x2048x128, .f32⟩
  | .hbm, ⟨44, _⟩ => ⟨S1x1x128, .f32⟩
  | .hbm, ⟨45, _⟩ => ⟨S32x2048x128, .f32⟩
  | .hbm, ⟨46, _⟩ => ⟨S32x2048x128, .f32⟩
  | .hbm, ⟨47, _⟩ => ⟨S_, .f32⟩
  | .hbm, ⟨48, _⟩ => ⟨S32x2048x128, .f32⟩
  | .hbm, ⟨49, _⟩ => ⟨S32x2048x128, .f32⟩
  | .hbm, ⟨50, _⟩ => ⟨S32x512x128, .f32⟩
  | .hbm, ⟨51, _⟩ => ⟨S1x1x128, .f32⟩
  | .hbm, ⟨52, _⟩ => ⟨S32x512x128, .f32⟩
  | .hbm, ⟨53, _⟩ => ⟨S32x512x128, .f32⟩
  | .hbm, ⟨54, _⟩ => ⟨S_, .f32⟩
  | .hbm, ⟨55, _⟩ => ⟨S32x512x128, .f32⟩
  | .hbm, ⟨56, _⟩ => ⟨S32x512x128, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_cst : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call1_cst : Ref sig .tc := ⟨.hbm, 54, rfl⟩
abbrev main_call1_v0 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  reducesTo_S32x2048x512_S32x2048_d2 : S32x2048x512.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  reducesTo_S32x2048x512_S32x512_d1 : S32x2048x512.ReducesTo [1] S32x512
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  concatenates_S32x2048x256_S32x2048x256_S32x2048x256_S32x2048x256_S32x2048x1024_d2 : Shape.Concatenates [S32x2048x256, S32x2048x256, S32x2048x256, S32x2048x256] S32x2048x1024 2
  concatenates_S32x512x256_S32x512x256_S32x512x256_S32x512x256_S32x512x1024_d2 : Shape.Concatenates [S32x512x256, S32x512x256, S32x512x256, S32x512x256] S32x512x1024 2
  bcast_S128_S1x1x128_2 : S128.BroadcastsInDim S1x1x128 (![2] : Fin 1 → Fin S1x1x128.rank)
  bcast_S1x1x128_S32x2048x128_0_1_2 : S1x1x128.BroadcastsInDim S32x2048x128 (![0, 1, 2] : Fin 3 → Fin S32x2048x128.rank)
  bcast_S_S32x2048x128 : S_.BroadcastsInDim S32x2048x128 (![] : Fin 0 → Fin S32x2048x128.rank)
  bcast_S1x1x128_S32x512x128_0_1_2 : S1x1x128.BroadcastsInDim S32x512x128 (![0, 1, 2] : Fin 3 → Fin S32x512x128.rank)
  bcast_S_S32x512x128 : S_.BroadcastsInDim S32x512x128 (![] : Fin 0 → Fin S32x512x128.rank)
  dot_S32x2048x256_S32x512x256_S32x2048x512_2_2_1_1_0_0_wf : DotDims.WF S32x2048x256 S32x512x256 S32x2048x512 [2] [2] [1] [1] [0] [0]
  dot_S32x2048x512_S32x512x256_S32x2048x256_2_1_1_2_0_0_wf : DotDims.WF S32x2048x512 S32x512x256 S32x2048x256 [2] [1] [1] [2] [0] [0]
  dot_S32x2048x512_S32x2048x256_S32x512x256_1_1_2_2_0_0_wf : DotDims.WF S32x2048x512 S32x2048x256 S32x512x256 [1] [1] [2] [2] [0] [0]
  dot_S32x2048x1024_S128x1024_S32x2048x128_2_1_01_0_n_n_wf : DotDims.WF S32x2048x1024 S128x1024 S32x2048x128 [2] [1] [0, 1] [0] [] []
  dot_S32x512x1024_S128x1024_S32x512x128_2_1_01_0_n_n_wf : DotDims.WF S32x512x1024 S128x1024 S32x512x128 [2] [1] [0, 1] [0] [] []

variable [Facts₀]

def dot_S32x2048x256_S32x512x256_S32x2048x512_2_2_1_1_0_0 : DotDims S32x2048x256 S32x512x256 S32x2048x512 where
  lhsContracting := [2]
  rhsContracting := [2]
  lhsNonContracting := [1]
  rhsNonContracting := [1]
  lhsBatch := [0]
  rhsBatch := [0]
  wf := dot_S32x2048x256_S32x512x256_S32x2048x512_2_2_1_1_0_0_wf
def dot_S32x2048x512_S32x512x256_S32x2048x256_2_1_1_2_0_0 : DotDims S32x2048x512 S32x512x256 S32x2048x256 where
  lhsContracting := [2]
  rhsContracting := [1]
  lhsNonContracting := [1]
  rhsNonContracting := [2]
  lhsBatch := [0]
  rhsBatch := [0]
  wf := dot_S32x2048x512_S32x512x256_S32x2048x256_2_1_1_2_0_0_wf
def dot_S32x2048x512_S32x2048x256_S32x512x256_1_1_2_2_0_0 : DotDims S32x2048x512 S32x2048x256 S32x512x256 where
  lhsContracting := [1]
  rhsContracting := [1]
  lhsNonContracting := [2]
  rhsNonContracting := [2]
  lhsBatch := [0]
  rhsBatch := [0]
  wf := dot_S32x2048x512_S32x2048x256_S32x512x256_1_1_2_2_0_0_wf
def dot_S32x2048x1024_S128x1024_S32x2048x128_2_1_01_0_n_n : DotDims S32x2048x1024 S128x1024 S32x2048x128 where
  lhsContracting := [2]
  rhsContracting := [1]
  lhsNonContracting := [0, 1]
  rhsNonContracting := [0]
  lhsBatch := []
  rhsBatch := []
  wf := dot_S32x2048x1024_S128x1024_S32x2048x128_2_1_01_0_n_n_wf
def dot_S32x512x1024_S128x1024_S32x512x128_2_1_01_0_n_n : DotDims S32x512x1024 S128x1024 S32x512x128 where
  lhsContracting := [2]
  rhsContracting := [1]
  lhsNonContracting := [0, 1]
  rhsNonContracting := [0]
  lhsBatch := []
  rhsBatch := []
  wf := dot_S32x512x1024_S128x1024_S32x512x128_2_1_01_0_n_n_wf

class Facts : Prop extends Facts₀ where

variable [Facts]
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.Spec.lean ====
/-
  Two-way attention between a context and a response, followed by a fused projection — the result as ONE function of the
  argument arrays, entry by entry, on the extended reals.

  For one batch element let X be the context (rows c, 256 features) and Y the response (rows r, 256 features).
    * score c r = Σ_k X(c,k) · Y(r,k).
    * For a finite family e, soft e j = exp(e j − top e) / Σ_k exp(e k − top e), where top e is the largest entry
      (a fold of max started from −∞, and once more compared with −∞, as both programs compute it).
    * attRow c k = Σ_r soft(score c ·)(r) · Y(r,k): every context row attends over the response rows.
    * attCol r k = Σ_c soft(score · r)(c) · X(c,k): every response row attends over the context rows.
    * fuse x a w b = max(Σ_k x_k·w_k + Σ_k a_k·w_{256+k} + Σ_k (x_k − a_k)·w_{512+k} + Σ_k (x_k·a_k)·w_{768+k} + b, 0):
      the projection of the concatenation (x, a, x − a, x·a) by one weight row of length 1024, plus a bias, clipped at 0.
  The context output at (batch, c, h) is fuse of row c of X and attRow c, with weight row h; the response output at
  (batch, r, h) is fuse of row r of Y and attCol r.

  One law is proved here: a sum over 1024 positions is the sum of the four sums over its quarters (sum_seg). It is
  regrouping in a commutative monoid, so it holds on the extended reals with no finiteness assumption.
-/
import Idealize.ShloMosaic.PureOps.Ideal
import Idealize.ShloMosaic.Lib.ValueIdx
import proofs.«141753_j2637109920016_1_alg».proof.Proof.LibTileSums

noncomputable section

namespace Cert.CoAttn

open Idealize.ShloMosaic Idealize.ShloMosaic.ValueIdx

/-- The value of the word both programs start a maximum from (−∞). -/
abbrev lo : EReal := Ideal.ofBits .f32 0xFF800000#32
/-- The value of the zero word. -/
abbrev zr : EReal := Ideal.ofBits .f32 0x00000000#32

variable {n m : ℕ}

/-- The score of context row `c` against response row `r`. -/
def score (X : Fin n → Fin 256 → EReal) (Y : Fin m → Fin 256 → EReal) (c : Fin n) (r : Fin m) : EReal :=
  ∑ k : Fin 256, X c k * Y r k

/-- The largest entry of a finite family, as both programs compute it. -/
def top {p : ℕ} (e : Fin p → EReal) : EReal := max lo ((Finset.univ : Finset (Fin p)).fold max lo e)

/-- The softmax weight of entry `j` of a finite family. -/
def soft {p : ℕ} (e : Fin p → EReal) (j : Fin p) : EReal :=
  Ideal.div (Ideal.exp (e j - top e)) (∑ k : Fin p, Ideal.exp (e k - top e))

/-- Context row `c` attended over the response rows, feature `k`. -/
def attRow (X : Fin n → Fin 256 → EReal) (Y : Fin m → Fin 256 → EReal) (c : Fin n) (k : Fin 256) : EReal :=
  ∑ r : Fin m, soft (fun r' => score X Y c r') r * Y r k

/-- Response row `r` attended over the context rows, feature `k`. -/
def attCol (X : Fin n → Fin 256 → EReal) (Y : Fin m → Fin 256 → EReal) (r : Fin m) (k : Fin 256) : EReal :=
  ∑ c : Fin n, soft (fun c' => score X Y c' r) c * X c k

/-- Position `k` of quarter `j` of a weight row of length 1024. -/
def seg (j : Fin 4) (k : Fin 256) : Fin 1024 := ⟨256 * j.val + k.val, by omega⟩

/-- The fused projection of (x, a, x − a, x·a) by a weight row, plus a bias, clipped at 0. -/
def fuse (x a : Fin 256 → EReal) (w : Fin 1024 → EReal) (b : EReal) : EReal :=
  max (((((∑ k : Fin 256, x k * w (seg 0 k)) + ∑ k : Fin 256, a k * w (seg 1 k)) + ∑ k : Fin 256, (x k - a k) * w (seg 2 k))
    + ∑ k : Fin 256, (x k * a k) * w (seg 3 k)) + b) zr

/-- The context output at batch `b`, row `c`, unit `h`. -/
def ctxAt (A : (⟨3, ![32, 2048, 256]⟩ : Shape).Idx → EReal) (B : (⟨3, ![32, 512, 256]⟩ : Shape).Idx → EReal)
    (W : (⟨2, ![128, 1024]⟩ : Shape).Idx → EReal) (bias : (⟨1, ![128]⟩ : Shape).Idx → EReal)
    (b : Fin 32) (c : Fin 2048) (h : Fin 128) : EReal :=
  fuse (fun k => A (ix3 b c k)) (attRow (fun c' k => A (ix3 b c' k)) (fun r k => B (ix3 b r k)) c)
    (fun f => W (ix2 h f)) (bias (ix1 h))

/-- The response output at batch `b`, row `r`, unit `h`. -/
def rspAt (A : (⟨3, ![32, 2048, 256]⟩ : Shape).Idx → EReal) (B : (⟨3, ![32, 512, 256]⟩ : Shape).Idx → EReal)
    (W : (⟨2, ![128, 1024]⟩ : Shape).Idx → EReal) (bias : (⟨1, ![128]⟩ : Shape).Idx → EReal)
    (b : Fin 32) (r : Fin 512) (h : Fin 128) : EReal :=
  fuse (fun k => B (ix3 b r k)) (attCol (fun c k => A (ix3 b c k)) (fun r' k => B (ix3 b r' k)) r)
    (fun f => W (ix2 h f)) (bias (ix1 h))

/-- The context output array. -/
def ctxOut (A : (⟨3, ![32, 2048, 256]⟩ : Shape).Idx → EReal) (B : (⟨3, ![32, 512, 256]⟩ : Shape).Idx → EReal)
    (W : (⟨2, ![128, 1024]⟩ : Shape).Idx → EReal) (bias : (⟨1, ![128]⟩ : Shape).Idx → EReal) :
    (⟨3, ![32, 2048, 128]⟩ : Shape).Idx → EReal := fun i => ctxAt A B W bias (i 0) (i 1) (i 2)

/-- The response output array. -/
def rspOut (A : (⟨3, ![32, 2048, 256]⟩ : Shape).Idx → EReal) (B : (⟨3, ![32, 512, 256]⟩ : Shape).Idx → EReal)
    (W : (⟨2, ![128, 1024]⟩ : Shape).Idx → EReal) (bias : (⟨1, ![128]⟩ : Shape).Idx → EReal) :
    (⟨3, ![32, 512, 128]⟩ : Shape).Idx → EReal := fun i => rspAt A B W bias (i 0) (i 1) (i 2)

theorem ctxOut_apply (A : (⟨3, ![32, 2048, 256]⟩ : Shape).Idx → EReal) (B : (⟨3, ![32, 512, 256]⟩ : Shape).Idx → EReal)
    (W : (⟨2, ![128, 1024]⟩ : Shape).Idx → EReal) (bias : (⟨1, ![128]⟩ : Shape).Idx → EReal)
    (b : Fin 32) (c : Fin 2048) (h : Fin 128) : ctxOut A B W bias (ix3 b c h) = ctxAt A B W bias b c h := rfl

theorem rspOut_apply (A : (⟨3, ![32, 2048, 256]⟩ : Shape).Idx → EReal) (B : (⟨3, ![32, 512, 256]⟩ : Shape).Idx → EReal)
    (W : (⟨2, ![128, 1024]⟩ : Shape).Idx → EReal) (bias : (⟨1, ![128]⟩ : Shape).Idx → EReal)
    (b : Fin 32) (r : Fin 512) (h : Fin 128) : rspOut A B W bias (ix3 b r h) = rspAt A B W bias b r h := rfl

/-- A sum over the 1024 positions of a weight row is the sum of the sums over its four quarters. -/
theorem sum_seg (g : Fin 1024 → EReal) :
    ∑ f : Fin 1024, g f
      = (((∑ k : Fin 256, g (seg 0 k)) + ∑ k : Fin 256, g (seg 1 k)) + ∑ k : Fin 256, g (seg 2 k)) + ∑ k : Fin 256, g (seg 3 k) := by
  let G : ℕ → EReal := fun p => if h : p < 1024 then g ⟨p, h⟩ else 0
  have hG : ∀ i : Fin (4 * 256), G i.val = g i := fun i => dif_pos i.isLt
  have h1 : ∑ f : Fin 1024, g f = ∑ i : Fin (4 * 256), G i.val :=
    Finset.sum_congr rfl fun i _ => (hG i).symm
  have hS : ∀ (j : Fin 4) (k : Fin 256), G (256 * j.val + k.val) = g (seg j k) :=
    fun j k => dif_pos (seg j k).isLt
  refine (h1.trans (Cert.LibTileSums.sum_blocks 4 256 G)).trans ?_
  rw [Fin.sum_univ_four]
  simp only [hS]

/-- The fused projection written with ONE sum over the whole weight row: the concatenation `cat` of (x, a, x − a, x·a)
    against the row. -/
theorem fuse_eq_of_cat (x a : Fin 256 → EReal) (w : Fin 1024 → EReal) (b : EReal) (cat : Fin 1024 → EReal)
    (h0 : ∀ k, cat (seg 0 k) = x k) (h1 : ∀ k, cat (seg 1 k) = a k) (h2 : ∀ k, cat (seg 2 k) = x k - a k)
    (h3 : ∀ k, cat (seg 3 k) = x k * a k) :
    max ((∑ f : Fin 1024, cat f * w f) + b) zr = fuse x a w b := by
  rw [sum_seg (fun f => cat f * w f)]
  simp only [h0, h1, h2, h3]
  rfl

end Cert.CoAttn

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibRowMin.lean ====
/-
  Minimum reductions of a matrix, at the ideal values, and sums down its columns.
  * For an [a, b] matrix reduced along its second axis into a vector of length a, a minimum reduction reads, at r, the
    fold of min over k < b of the entries (r, k), started from the accumulator's value.
  * The host's sum along the rows reads, at r, the initial value plus the sum over k < b of the entries (r, k).
  * For an [a, b] matrix reduced along its FIRST axis into a vector of length b: the index of the matrix that lies over
    position c of the vector with k inserted on the reduced axis is (k, c); the host's minimum reduction reads, at c, the
    fold of min over k < a of the entries (k, c), started from the initial value; the host's sum reads, at c, the initial
    value plus the sum over k < a of the entries (k, c).
-/
import Idealize.ShloMosaic.PureOps.Ideal.Laws
import Idealize.ShloMosaic.PureOps.Reduce
import Idealize.ShloMosaic.Lib.ValueIdx

noncomputable section

namespace Cert.LibRowMin

open Idealize.ShloMosaic Idealize.ShloMosaic.ValueIdx

/-- Over position `r` of the reduced vector, with `k` on the reduced (second) axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The minimum along a row: at `r`, the fold of `min` over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single FloatOps.minimumf (FloatOps.ofBits φ acc) src (ix1 r)).trans ?_
  exact congrArg (Finset.fold min (Ideal.ofBits φ acc) · (Finset.univ : Finset (Fin b)))
    (funext fun k => congrArg src (lift_row h r k))

/-- The host's sum along a row: at `r`, the initial value plus the sum over the row's entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (init (Shape.Idx.first hu) + ·) (Finset.sum_congr rfl fun k _ => congrArg x (lift_row h r k)))

/-- The host's minimum down a column: at `c`, the fold of `min` over the column's entries from the initial value. -/
theorem hostColMin_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.minimumf x init h' hu (ix1 c)
      = (Finset.univ : Finset (Fin a)).fold min (init (Shape.Idx.first hu)) (fun k => x (ix2 k c)) := by
  refine (Host.reduce_eq_fold_single FloatOps.minimumf x init h' h hu (ix1 c)).trans ?_
  exact congrArg (Finset.fold min (init (Shape.Idx.first hu)) · (Finset.univ : Finset (Fin a)))
    (funext fun k => congrArg x (lift_col h c k))

end Cert.LibRowMin

end
-- ==== Proof.KSoft.lean ====
/-
  The softmax along the rows and down the columns of a matrix, as the kernel computes it, read at an entry.

  For a matrix E with a rows and b columns the kernel takes the maximum along an axis (from −∞, and once more against −∞),
  makes it a column (or a row) and repeats it across the matrix, subtracts, exponentiates, sums along the same axis, repeats
  the sums across the matrix and divides. Read at the entry (c, r):
    * along the rows it is soft of row c of E at r;
    * down the columns it is soft of column r of E at c.
  Also here: the maximum and the sum down a column read at a position, the counterparts of the row forms.
-/
import Idealize.ShloMosaic.PureOps.Ideal.Laws
import Idealize.ShloMosaic.Lib.Pipeline.Value
import Idealize.ShloMosaic.Lib.ValueIdx
import Idealize.ShloMosaic.Lib.ValueLayout
import proofs.«141753_j2637109920016_1_alg».proof.Proof.Spec
import proofs.«141753_j2637109920016_1_alg».proof.Proof.LibColumn
import proofs.«141753_j2637109920016_1_alg».proof.Proof.LibRowReduce
import proofs.«141753_j2637109920016_1_alg».proof.Proof.LibRowMin

noncomputable section

namespace Cert.CoAttn

open Idealize.ShloMosaic Idealize.ShloMosaic.ValueIdx

variable {a b : ℕ}

/-- The maximum down a column: at `c`, the fold of `max` over the column's entries from the accumulator's value. -/
theorem colMax_apply {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (FloatOps.ofBits φ acc) (fun k => src (ix2 k c)) :=
  (Ideal.multiReduction_maximumf_single src acc h hφ hacc (ix1 c)).trans
    (congrArg (Finset.fold max (FloatOps.ofBits φ acc) · (Finset.univ : Finset (Fin a)))
      (funext fun k => congrArg src (Cert.LibRowMin.lift_col h c k)))

/-- The sum down a column: at `c`, the sum over the column's entries. -/
theorem colSum_apply {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (Cert.LibRowMin.lift_col h c k))

/-- The softmax along the rows, as the kernel prints it, at the entry `(c, r)`. -/
theorem rowSoft_apply (E : FVec Ideal ⟨2, ![a, b]⟩ .f32)
    (hr : (⟨2, ![a, b]⟩ : Shape).Reduces [1] ⟨1, ![a]⟩) (hφ : FKind.Formats .f32)
    (hmx : (0xFF800000#32 : BitVec FTy.f32.bits) = FKind.maximumf.neutral .f32 hφ)
    (hsm : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (c : Fin a) (r : Fin b) :
    divf (exp (subf E (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ E 0xFF800000#32 hr hφ hmx)) hc) hb)))
        (broadcastTo ⟨2, ![a, b]⟩ (shapeCast ⟨2, ![a, 1]⟩
          (multiReduction .add [1] ⟨1, ![a]⟩
            (exp (subf E (broadcastTo ⟨2, ![a, b]⟩ (shapeCast ⟨2, ![a, 1]⟩
              (maximumf (broadcast ⟨1, ![a]⟩ (Scalar.ofBits (F := Ideal) .f32 0xFF800000#32))
                (multiReduction .maximumf [1] ⟨1, ![a]⟩ E 0xFF800000#32 hr hφ hmx)) hc) hb)))
            0x00000000#32 hr hφ hsm) hc) hb) (ix2 c r)
      = soft (fun r' => E (ix2 c r')) r := by
  -- the repeated column of maxima, at any entry of row c
  have hT : ∀ r' : Fin b, broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ E 0xFF800000#32 hr hφ hmx)) hc) hb (ix2 c r')
        = top (fun r'' => E (ix2 c r'')) := fun r' =>
    (Cert.LibColumn.broadcastTo_a1_ab_apply _ hb c r').trans
      ((Cert.LibColumn.shapeCast_a_a1_apply _ hc c 0).trans
        (congrArg (max lo) (Cert.LibRowReduce.rowMax_apply E 0xFF800000#32 hr hφ hmx c)))
  -- the exponentials, at any entry of row c
  have hX : ∀ r' : Fin b, exp (subf E (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ E 0xFF800000#32 hr hφ hmx)) hc) hb)) (ix2 c r')
        = Ideal.exp (E (ix2 c r') - top (fun r'' => E (ix2 c r''))) := fun r' =>
    congrArg (fun t => Ideal.exp (E (ix2 c r') - t)) (hT r')
  show Ideal.div _ _ = Ideal.div _ _
  refine congr (congrArg Ideal.div (hX r)) ?_
  refine (Cert.LibColumn.broadcastTo_a1_ab_apply _ hb c r).trans ((Cert.LibColumn.shapeCast_a_a1_apply _ hc c 0).trans ?_)
  refine (Cert.LibRowReduce.rowSum_apply _ 0x00000000#32 hr hφ hsm c).trans ?_
  exact Finset.sum_congr rfl fun r' _ => hX r'

/-- The softmax down the columns, as the kernel prints it, at the entry `(c, r)`. -/
theorem colSoft_apply (E : FVec Ideal ⟨2, ![a, b]⟩ .f32)
    (hr : (⟨2, ![a, b]⟩ : Shape).Reduces [0] ⟨1, ![b]⟩) (hφ : FKind.Formats .f32)
    (hmx : (0xFF800000#32 : BitVec FTy.f32.bits) = FKind.maximumf.neutral .f32 hφ)
    (hsm : (0x00000000#32 : BitVec FTy.f32.bits) = FKind.add.neutral .f32 hφ)
    (hc : (⟨1, ![b]⟩ : Shape).ShapeCasts ⟨2, ![1, b]⟩) (hb : (⟨2, ![1, b]⟩ : Shape).Broadcasts ⟨2, ![a, b]⟩)
    (c : Fin a) (r : Fin b) :
    divf (exp (subf E (broadcastTo ⟨2, ![a, b]⟩ (shapeCast ⟨2, ![1, b]⟩
            (maximumf (broadcast ⟨1, ![b]⟩ (Scalar.ofBits (F := Ideal) .f32 0xFF800000#32))
              (multiReduction .maximumf [0] ⟨1, ![b]⟩ E 0xFF800000#32 hr hφ hmx)) hc) hb)))
        (broadcastTo ⟨2, ![a, b]⟩ (shapeCast ⟨2, ![1, b]⟩
          (multiReduction .add [0] ⟨1, ![b]⟩
            (exp (subf E (broadcastTo ⟨2, ![a, b]⟩ (shapeCast ⟨2, ![1, b]⟩
              (maximumf (broadcast ⟨1, ![b]⟩ (Scalar.ofBits (F := Ideal) .f32 0xFF800000#32))
                (multiReduction .maximumf [0] ⟨1, ![b]⟩ E 0xFF800000#32 hr hφ hmx)) hc) hb)))
            0x00000000#32 hr hφ hsm) hc) hb) (ix2 c r)
      = soft (fun c' => E (ix2 c' r)) c := by
  have hT : ∀ c' : Fin a, broadcastTo ⟨2, ![a, b]⟩ (shapeCast ⟨2, ![1, b]⟩
            (maximumf (broadcast ⟨1, ![b]⟩ (Scalar.ofBits (F := Ideal) .f32 0xFF800000#32))
              (multiReduction .maximumf [0] ⟨1, ![b]⟩ E 0xFF800000#32 hr hφ hmx)) hc) hb (ix2 c' r)
        = top (fun c'' => E (ix2 c'' r)) := fun c' =>
    (broadcastTo_1b_ab_apply _ hb c' r).trans
      ((shapeCast_a_1a_apply _ hc 0 r).trans
        (congrArg (max lo) (colMax_apply E 0xFF800000#32 hr hφ hmx r)))
  have hX : ∀ c' : Fin a, exp (subf E (broadcastTo ⟨2, ![a, b]⟩ (shapeCast ⟨2, ![1, b]⟩
            (maximumf (broadcast ⟨1, ![b]⟩ (Scalar.ofBits (F := Ideal) .f32 0xFF800000#32))
              (multiReduction .maximumf [0] ⟨1, ![b]⟩ E 0xFF800000#32 hr hφ hmx)) hc) hb)) (ix2 c' r)
        = Ideal.exp (E (ix2 c' r) - top (fun c'' => E (ix2 c'' r))) := fun c' =>
    congrArg (fun t => Ideal.exp (E (ix2 c' r) - t)) (hT c')
  show Ideal.div _ _ = Ideal.div _ _
  refine congr (congrArg Ideal.div (hX c)) ?_
  refine (broadcastTo_1b_ab_apply _ hb c r).trans ((shapeCast_a_1a_apply _ hc 0 r).trans ?_)
  refine (colSum_apply _ 0x00000000#32 hr hφ hsm r).trans ?_
  exact Finset.sum_congr rfl fun c' _ => hX c'

end Cert.CoAttn

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KPay.lean ====
/-
  The kernel body's values at an entry, for one batch element, as functions of the blocks it loads.

  With X the context block's rows and Y the response block's rows (the leading unit axis dropped):
    * the first product is the score matrix;
    * the product of the row softmax with the response is attRow, the product of the transposed column softmax with the
      context is attCol;
    * each stored value is, at (c, h), the fused projection of the row and its attended row by weight row h: the kernel takes
      four products of 256-wide pieces against the four quarters of the weight row and adds them, then the bias, then
      clips at 0 — which is fuse.
  Rounding steps to a narrower format are the identity on the extended reals and vanish by unfolding.
-/
import Idealize.ShloMosaic.PureOps.Ideal.Laws
import Idealize.ShloMosaic.Lib.Pipeline.Value
import Idealize.ShloMosaic.Lib.ValueIdx
import Idealize.ShloMosaic.Lib.ValueLayout
import proofs.«141753_j2637109920016_1_alg».proof.Proof.Gen.KernelIdeal.Skeleton
import proofs.«141753_j2637109920016_1_alg».proof.Proof.Spec
import proofs.«141753_j2637109920016_1_alg».proof.Proof.KSoft
import proofs.«141753_j2637109920016_1_alg».proof.Proof.LibPlainDot

noncomputable section

namespace Cert.CoAttn.Kernel

open Idealize.ShloMosaic Idealize.ShloMosaic.ValueIdx Cert.KernelIdeal Cert.KernelIdeal.Gen Cert.CoAttn

variable [Cert.KernelIdeal.Facts]

/-- The context block's rows. -/
abbrev X (x0 : Vec Ideal S1x2048x256 .f32) : Fin 2048 → Fin 256 → EReal := fun c k => x0 (ix3 (0 : Fin 1) c k)
/-- The response block's rows. -/
abbrev Y (x1 : Vec Ideal S1x512x256 .f32) : Fin 512 → Fin 256 → EReal := fun r k => x1 (ix3 (0 : Fin 1) r k)

theorem seg_val (j : Fin 4) (k : Fin 256) : (seg j k).val = 256 * j.val + k.val := rfl

/-- The context block with its unit axis dropped. -/
theorem pay2_apply (x0 : Vec Ideal S1x2048x256 .f32) (c : Fin 2048) (k : Fin 256) :
    k0_pay2 (F := Ideal) x0 (ix2 c k) = X x0 c k :=
  shapeCast_1ab_ab_apply x0 _ c k

/-- The response block with its unit axis dropped. -/
theorem pay3_apply (x1 : Vec Ideal S1x512x256 .f32) (r : Fin 512) (k : Fin 256) :
    k0_pay3 (F := Ideal) x1 (ix2 r k) = Y x1 r k :=
  shapeCast_1ab_ab_apply x1 _ r k

theorem pay4_apply (x0 : Vec Ideal S1x2048x256 .f32) (c : Fin 2048) (k : Fin 256) :
    k0_pay4 (F := Ideal) x0 (ix2 c k) = X x0 c k := pay2_apply x0 c k

theorem pay5_apply (x1 : Vec Ideal S1x512x256 .f32) (r : Fin 512) (k : Fin 256) :
    k0_pay5 (F := Ideal) x1 (ix2 r k) = Y x1 r k := pay3_apply x1 r k

/-- The first product is the score matrix. -/
theorem pay6_apply (x0 : Vec Ideal S1x2048x256 .f32) (x1 : Vec Ideal S1x512x256 .f32) (c : Fin 2048) (r : Fin 512) :
    k0_pay6 (F := Ideal) x0 x1 (ix2 c r) = score (X x0) (Y x1) c r := by
  unfold k0_pay6
  refine (Cert.LibPlainDot.matmul_plain 2048 256 512 none _ _ (ix2 c r)).trans ?_
  exact Finset.sum_congr rfl fun k _ =>
    congr (congrArg HMul.hMul (pay4_apply x0 c k)) ((transpose_ix2_apply _ _ k r).trans (pay5_apply x1 r k))

/-- The row softmax times the response: every context row attended over the response rows. -/
theorem pay7_apply (x0 : Vec Ideal S1x2048x256 .f32) (x1 : Vec Ideal S1x512x256 .f32) (c : Fin 2048) (k : Fin 256) :
    k0_pay7 (F := Ideal) x0 x1 (ix2 c k) = attRow (X x0) (Y x1) c k := by
  unfold k0_pay7
  refine (Cert.LibPlainDot.matmul_plain 2048 512 256 none _ _ (ix2 c k)).trans ?_
  refine Finset.sum_congr rfl fun r _ => congr (congrArg HMul.hMul ?_) (pay5_apply x1 r k)
  refine (rowSoft_apply (k0_pay6 (F := Ideal) x0 x1) _ _ _ _ _ _ c r).trans ?_
  exact congrArg (fun e => soft e r) (funext fun r' => pay6_apply x0 x1 c r')

/-- The transposed column softmax times the context: every response row attended over the context rows. -/
theorem pay8_apply (x0 : Vec Ideal S1x2048x256 .f32) (x1 : Vec Ideal S1x512x256 .f32) (r : Fin 512) (k : Fin 256) :
    k0_pay8 (F := Ideal) x0 x1 (ix2 r k) = attCol (X x0) (Y x1) r k := by
  unfold k0_pay8
  refine (Cert.LibPlainDot.matmul_plain 512 2048 256 none _ _ (ix2 r k)).trans ?_
  refine Finset.sum_congr rfl fun c _ => congr (congrArg HMul.hMul ?_) (pay4_apply x0 c k)
  refine (transpose_ix2_apply _ _ r c).trans ?_
  refine (colSoft_apply (k0_pay6 (F := Ideal) x0 x1) _ _ _ _ _ _ c r).trans ?_
  exact congrArg (fun e => soft e c) (funext fun c' => pay6_apply x0 x1 c' r)

/-- A quarter of the weight matrix, transposed: at (k, h), weight row h at position k of the quarter. -/
theorem quarter_apply (o : ℕ) (j : Fin 4) (ho : o = 256 * j.val) (w : Vec Ideal S128x1024 .f32)
    (hs : (S128x1024 : Shape).Slices ![0, o] S128x256) (ht : (S128x256 : Shape).Transposes [1, 0] S256x128)
    (k : Fin 256) (h : Fin 128) :
    transpose S256x128 [1, 0] (extractStridedSlice S128x256 ![0, o] w hs) ht (ix2 k h) = w (ix2 h (seg j k)) :=
  (transpose_ix2_apply _ ht k h).trans (slice2_axis1_apply o w hs h k (seg j k) (by rw [seg_val, ho]))

/-- One of the four products: a 256-wide piece against a quarter of the weights. -/
theorem piece_apply {n : ℕ} (L : FVec Ideal ⟨2, ![n, 256]⟩ .bf16) (R : FVec Ideal ⟨2, ![256, 128]⟩ .bf16)
    (x w : Fin 256 → EReal) (c : Fin n) (h : Fin 128) (hL : ∀ k, L (ix2 c k) = x k) (hR : ∀ k, R (ix2 k h) = w k) :
    matmul (F := Ideal) (DotDims.plain n 256 128) none L R (constant ⟨2, ![n, 128]⟩ .f32 0x00000000#32) (ix2 c h)
      = ∑ k : Fin 256, x k * w k :=
  (Cert.LibPlainDot.matmul_plain n 256 128 none L R (ix2 c h)).trans
    (Finset.sum_congr rfl fun k _ => congr (congrArg HMul.hMul (hL k)) (hR k))

/-- The bias row repeated down the rows: at (c, h), the bias at h. -/
theorem bias_apply {n : ℕ} (x3 : Vec Ideal S1x128 .f32) (hc : (S1x128 : Shape).ShapeCasts S1x128)
    (hb : (S1x128 : Shape).Broadcasts ⟨2, ![n, 128]⟩) (c : Fin n) (h : Fin 128) :
    broadcastTo ⟨2, ![n, 128]⟩ (shapeCast S1x128 x3 hc) hb (ix2 c h) = x3 (ix2 (0 : Fin 1) h) :=
  (broadcastTo_1b_ab_apply _ hb c h).trans (congrFun (shapeCast_self x3 hc) _)

/-- The value stored to the context output's block, at (c, h). -/
theorem ctx_stored_apply (x0 : Vec Ideal S1x2048x256 .f32) (x1 : Vec Ideal S1x512x256 .f32) (x2 : Vec Ideal S128x1024 .f32)
    (x3 : Vec Ideal S1x128 .f32) (c : Fin 2048) (h : Fin 128) :
    k0_pay15 (F := Ideal) (k0_pay2 x0) (k0_pay4 x0) (k0_pay7 x0 x1) (k0_pay9 x2) (k0_pay10 x2) (k0_pay11 x2) (k0_pay12 x2)
        (k0_pay13 x0 x1) (k0_pay14 x0 x1) x3 (ix3 (0 : Fin 1) c h)
      = fuse (X x0 c) (attRow (X x0) (Y x1) c) (fun f => x2 (ix2 h f)) (x3 (ix2 (0 : Fin 1) h)) := by
  unfold k0_pay15 k0_pay9 k0_pay10 k0_pay11 k0_pay12 k0_pay13 k0_pay14
  refine (shapeCast_ab_1ab_apply _ _ 0 c h).trans ?_
  unfold fuse
  show max _ _ = max _ _
  refine congr (congrArg max ?_) rfl
  show (((_ + _) + _) + _) + _ = (((_ + _) + _) + _) + _
  refine congr (congrArg HAdd.hAdd (congr (congrArg HAdd.hAdd (congr (congrArg HAdd.hAdd (congr (congrArg HAdd.hAdd ?_) ?_)) ?_)) ?_)) ?_
  · exact piece_apply _ _ (X x0 c) (fun k => x2 (ix2 h (seg 0 k))) c h (fun k => pay4_apply x0 c k)
      (fun k => quarter_apply 0 0 rfl x2 Facts₀.slices_S128x1024_o0_0_S128x256 Facts₀.transposes_S128x256_p1_0_S256x128 k h)
  · exact piece_apply _ _ (attRow (X x0) (Y x1) c) (fun k => x2 (ix2 h (seg 1 k))) c h (fun k => pay7_apply x0 x1 c k)
      (fun k => quarter_apply 256 1 rfl x2 Facts₀.slices_S128x1024_o0_256_S128x256 Facts₀.transposes_S128x256_p1_0_S256x128 k h)
  · exact piece_apply _ _ (fun k => X x0 c k - attRow (X x0) (Y x1) c k) (fun k => x2 (ix2 h (seg 2 k))) c h
      (fun k => congr (congrArg HSub.hSub (pay2_apply x0 c k)) (pay7_apply x0 x1 c k))
      (fun k => quarter_apply 512 2 rfl x2 Facts₀.slices_S128x1024_o0_512_S128x256 Facts₀.transposes_S128x256_p1_0_S256x128 k h)
  · exact piece_apply _ _ (fun k => X x0 c k * attRow (X x0) (Y x1) c k) (fun k => x2 (ix2 h (seg 3 k))) c h
      (fun k => congr (congrArg HMul.hMul (pay2_apply x0 c k)) (pay7_apply x0 x1 c k))
      (fun k => quarter_apply 768 3 rfl x2 Facts₀.slices_S128x1024_o0_768_S128x256 Facts₀.transposes_S128x256_p1_0_S256x128 k h)
  · exact bias_apply x3 _ _ c h

/-- The value stored to the response output's block, at (r, h). -/
theorem rsp_stored_apply (x0 : Vec Ideal S1x2048x256 .f32) (x1 : Vec Ideal S1x512x256 .f32) (x4 : Vec Ideal S128x1024 .f32)
    (x5 : Vec Ideal S1x128 .f32) (r : Fin 512) (h : Fin 128) :
    k0_pay1 (F := Ideal) (k0_pay16 x4) (k0_pay17 (k0_pay3 x1) (k0_pay8 x0 x1)) (k0_pay18 (k0_pay3 x1) (k0_pay8 x0 x1))
        (k0_pay19 (k0_pay5 x1) (k0_pay8 x0 x1) x4) (k0_pay20 x4) x5 (ix3 (0 : Fin 1) r h)
      = fuse (Y x1 r) (attCol (X x0) (Y x1) r) (fun f => x4 (ix2 h f)) (x5 (ix2 (0 : Fin 1) h)) := by
  unfold k0_pay1 k0_pay16 k0_pay17 k0_pay18 k0_pay19 k0_pay20
  refine (shapeCast_ab_1ab_apply _ _ 0 r h).trans ?_
  unfold fuse
  show max _ _ = max _ _
  refine congr (congrArg max ?_) rfl
  show (((_ + _) + _) + _) + _ = (((_ + _) + _) + _) + _
  refine congr (congrArg HAdd.hAdd (congr (congrArg HAdd.hAdd (congr (congrArg HAdd.hAdd (congr (congrArg HAdd.hAdd ?_) ?_)) ?_)) ?_)) ?_
  · exact piece_apply _ _ (Y x1 r) (fun k => x4 (ix2 h (seg 0 k))) r h (fun k => pay5_apply x1 r k)
      (fun k => quarter_apply 0 0 rfl x4 Facts₀.slices_S128x1024_o0_0_S128x256 Facts₀.transposes_S128x256_p1_0_S256x128 k h)
  · exact piece_apply _ _ (attCol (X x0) (Y x1) r) (fun k => x4 (ix2 h (seg 1 k))) r h (fun k => pay8_apply x0 x1 r k)
      (fun k => quarter_apply 256 1 rfl x4 Facts₀.slices_S128x1024_o0_256_S128x256 Facts₀.transposes_S128x256_p1_0_S256x128 k h)
  · exact piece_apply _ _ (fun k => Y x1 r k - attCol (X x0) (Y x1) r k) (fun k => x4 (ix2 h (seg 2 k))) r h
      (fun k => congr (congrArg HSub.hSub (pay3_apply x1 r k)) (pay8_apply x0 x1 r k))
      (fun k => quarter_apply 512 2 rfl x4 Facts₀.slices_S128x1024_o0_512_S128x256 Facts₀.transposes_S128x256_p1_0_S256x128 k h)
  · exact piece_apply _ _ (fun k => Y x1 r k * attCol (X x0) (Y x1) r k) (fun k => x4 (ix2 h (seg 3 k))) r h
      (fun k => congr (congrArg HMul.hMul (pay3_apply x1 r k)) (pay8_apply x0 x1 r k))
      (fun k => quarter_apply 768 3 rfl x4 Facts₀.slices_S128x1024_o0_768_S128x256 Facts₀.transposes_S128x256_p1_0_S256x128 k h)
  · exact bias_apply x5 _ _ r h

end Cert.CoAttn.Kernel

end
-- ==== Proof.KBlocks.lean ====
/-
  From blocks to arrays: what the kernel leaves in its two output arrays.

  The grid has one axis, the batch. At point t every window over a batched array holds batch element t whole (block index
  (t, 0, 0)), and the weight and bias windows hold their arrays whole (block index (0, 0)). So the value point t writes back to
  the context output is, at (0, c, h), the context output function of the argument arrays at (t, c, h) — and likewise for the
  response output. The 32 blocks cover each output array, so after the run each output array IS that function.
  The bias arrays the kernel reads are the one-row reshapes of the bias vectors that the host makes before the launch.
-/
import Idealize.ShloMosaic.Lib.Pipeline.Value
import Idealize.ShloMosaic.Lib.ValueIdx
import Idealize.ShloMosaic.Lib.ValueLayout
import Idealize.ShloMosaic.Lib.StableHlo.Run
import proofs.«141753_j2637109920016_1_alg».proof.Proof.Gen.KernelIdeal.Value
import proofs.«141753_j2637109920016_1_alg».proof.Proof.Spec
import proofs.«141753_j2637109920016_1_alg».proof.Proof.KPay

set_option maxRecDepth 16384

noncomputable section

namespace Cert.CoAttn.Blocks

open Idealize.ShloMosaic Idealize.ShloMosaic.TcCoe Idealize.ShloMosaic.ValueIdx Idealize.SL.Sem
open Cert.KernelIdeal Cert.KernelIdeal.Gen Cert.CoAttn Cert.CoAttn.Kernel
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: a batched window's block index at point t is (t, 0, 0); a weight or bias
    window's is (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- Grid point t as a batch index. -/
abbrev bat (t : Fin cfg0.N) : Fin 32 := ⟨t.val, lt_of_lt_of_eq t.isLt N_0⟩

/-- The context window's block at point t is batch element t of the context array. -/
theorem blk0_apply (c : Dev nD) (t : Fin cfg0.N) (p : Fin 2048) (k : Fin 256) :
    iblk m c 0 t (ix3 (0 : Fin 1) p k) = V m c main_arg0 (ix3 (bat t) p k) := by
  obtain ⟨⟨e0, e1, e2⟩, -⟩ := idx_facts t
  show V m c main_arg0 (((cfg0.win 0).blk t).view.emb (ix3 (0 : Fin 1) p k)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 2048 + 1 * p.val = p.val; omega
  | ⟨2, _⟩ => show win0_0.index t (2 : Fin 3) * 256 + 1 * k.val = k.val; omega

/-- The response window's block at point t is batch element t of the response array. -/
theorem blk1_apply (c : Dev nD) (t : Fin cfg0.N) (p : Fin 512) (k : Fin 256) :
    iblk m c 1 t (ix3 (0 : Fin 1) p k) = V m c main_arg1 (ix3 (bat t) p k) := by
  obtain ⟨-, ⟨e0, e1, e2⟩, -⟩ := idx_facts t
  show V m c main_arg1 (((cfg0.win 1).blk t).view.emb (ix3 (0 : Fin 1) p k)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 256 + 1 * k.val = k.val; omega

/-- The first weight window's block is the whole weight array. -/
theorem blk2_apply (c : Dev nD) (t : Fin cfg0.N) (h : Fin 128) (f : Fin 1024) :
    iblk m c 2 t (ix2 h f) = V m c main_arg2 (ix2 h f) := by
  obtain ⟨-, -, ⟨e0, e1⟩, -⟩ := idx_facts t
  show V m c main_arg2 (((cfg0.win 2).blk t).view.emb (ix2 h f)) = _
  refine congrArg (V m c main_arg2) (funext fun a => Fin.ext ?_)
  match a with
  | ⟨0, _⟩ => show win0_2.index t (0 : Fin 2) * 128 + 1 * h.val = h.val; omega
  | ⟨1, _⟩ => show win0_2.index t (1 : Fin 2) * 1024 + 1 * f.val = f.val; omega

/-- The second weight window's block is the whole weight array. -/
theorem blk4_apply (c : Dev nD) (t : Fin cfg0.N) (h : Fin 128) (f : Fin 1024) :
    iblk m c 4 t (ix2 h f) = V m c main_arg4 (ix2 h f) := by
  obtain ⟨-, -, -, -, ⟨e0, e1⟩, -⟩ := idx_facts t
  show V m c main_arg4 (((cfg0.win 4).blk t).view.emb (ix2 h f)) = _
  refine congrArg (V m c main_arg4) (funext fun a => Fin.ext ?_)
  match a with
  | ⟨0, _⟩ => show win0_4.index t (0 : Fin 2) * 128 + 1 * h.val = h.val; omega
  | ⟨1, _⟩ => show win0_4.index t (1 : Fin 2) * 1024 + 1 * f.val = f.val; omega

/-- The one-row bias array the host makes from the first bias vector. -/
theorem V_row0 (c : Dev nD) :
    (V m c main_v0 : S1x128.Idx → EReal) = shapeCast S1x128 (m ((c : Thread nD τ).loc main_arg3)) Facts₀.shapeCasts_S128_S1x128 := by
  dsimp only [Gen.V, Gen.hostOps0]; after_results; rfl

/-- The one-row bias array the host makes from the second bias vector. -/
theorem V_row1 (c : Dev nD) :
    (V m c main_v1 : S1x128.Idx → EReal) = shapeCast S1x128 (m ((c : Thread nD τ).loc main_arg5)) Facts₀.shapeCasts_S128_S1x128 := by
  dsimp only [Gen.V, Gen.hostOps0]; after_results; rfl

/-- The first bias window's block is the first bias vector as one row. -/
theorem blk3_apply (c : Dev nD) (t : Fin cfg0.N) (h : Fin 128) :
    iblk m c 3 t (ix2 (0 : Fin 1) h) = m ((c : Thread nD τ).loc main_arg3) (ix1 h) := by
  obtain ⟨-, -, -, ⟨e0, e1⟩, -⟩ := idx_facts t
  have he : ((cfg0.win 3).blk t).view.emb (ix2 (0 : Fin 1) h) = ix2 (0 : Fin 1) h := funext fun a => Fin.ext (by
    match a with
    | ⟨0, _⟩ => show win0_3.index t (0 : Fin 2) * 1 + 1 * 0 = 0; omega
    | ⟨1, _⟩ => show win0_3.index t (1 : Fin 2) * 128 + 1 * h.val = h.val; omega)
  show V m c main_v0 (((cfg0.win 3).blk t).view.emb (ix2 (0 : Fin 1) h)) = _
  rw [he, V_row0]
  exact shapeCast_a_1a_apply _ _ 0 h

/-- The second bias window's block is the second bias vector as one row. -/
theorem blk5_apply (c : Dev nD) (t : Fin cfg0.N) (h : Fin 128) :
    iblk m c 5 t (ix2 (0 : Fin 1) h) = m ((c : Thread nD τ).loc main_arg5) (ix1 h) := by
  obtain ⟨-, -, -, -, -, ⟨e0, e1⟩, -⟩ := idx_facts t
  have he : ((cfg0.win 5).blk t).view.emb (ix2 (0 : Fin 1) h) = ix2 (0 : Fin 1) h := funext fun a => Fin.ext (by
    match a with
    | ⟨0, _⟩ => show win0_5.index t (0 : Fin 2) * 1 + 1 * 0 = 0; omega
    | ⟨1, _⟩ => show win0_5.index t (1 : Fin 2) * 128 + 1 * h.val = h.val; omega)
  show V m c main_v1 (((cfg0.win 5).blk t).view.emb (ix2 (0 : Fin 1) h)) = _
  rw [he, V_row1]
  exact shapeCast_a_1a_apply _ _ 0 h

/-- Where the context output's block at point t sits in its array. -/
theorem emb6 (t : Fin cfg0.N) (p : Fin 2048) (q : Fin 128) :
    ((cfg0.win 6).blk t).view.emb (ix3 (0 : Fin 1) p q) = ix3 (bat t) p q := by
  obtain ⟨-, -, -, -, -, -, ⟨e0, e1, e2⟩, -⟩ := idx_facts t
  refine funext fun a => Fin.ext ?_
  match a with
  | ⟨0, _⟩ => show win0_6.index t (0 : Fin 3) * 1 + 1 * 0 = t.val; omega
  | ⟨1, _⟩ => show win0_6.index t (1 : Fin 3) * 2048 + 1 * p.val = p.val; omega
  | ⟨2, _⟩ => show win0_6.index t (2 : Fin 3) * 128 + 1 * q.val = q.val; omega

/-- Where the response output's block at point t sits in its array. -/
theorem emb7 (t : Fin cfg0.N) (p : Fin 512) (q : Fin 128) :
    ((cfg0.win 7).blk t).view.emb (ix3 (0 : Fin 1) p q) = ix3 (bat t) p q := by
  obtain ⟨-, -, -, -, -, -, -, ⟨e0, e1, e2⟩⟩ := idx_facts t
  refine funext fun a => Fin.ext ?_
  match a with
  | ⟨0, _⟩ => show win0_7.index t (0 : Fin 3) * 1 + 1 * 0 = t.val; omega
  | ⟨1, _⟩ => show win0_7.index t (1 : Fin 3) * 512 + 1 * p.val = p.val; omega
  | ⟨2, _⟩ => show win0_7.index t (2 : Fin 3) * 128 + 1 * q.val = q.val; omega

/-- The context output as a function of the arrays the region finds. -/
abbrev ctxG (c : Dev nD) : S32x2048x128.Idx → EReal :=
  ctxOut (V m c main_arg0) (V m c main_arg1) (V m c main_arg2) (m ((c : Thread nD τ).loc main_arg3))

/-- The response output as a function of the arrays the region finds. -/
abbrev rspG (c : Dev nD) : S32x512x128.Idx → EReal :=
  rspOut (V m c main_arg0) (V m c main_arg1) (V m c main_arg4) (m ((c : Thread nD τ).loc main_arg5))

/-- What point t writes back to the context output is block t of the context output function. -/
theorem flushed6_eq (c : Dev nD) (t : Fin cfg0.N) :
    (dats m 0 c).flushed 6 t = ((cfg0.win 6).blk t).view.read (Elt Ideal) (ctxG m c) := by
  rw [Cert.KernelIdeal.Value.flushed6]
  unfold out0_6
  rw [View.canon_unit_zero hz3]
  simp only [View.ld_unit_zero (S := S1x2048x256) hz3, View.ld_unit_zero (S := S1x512x256) hz3,
    View.ld_unit_zero (S := S128x1024) hz2, View.ld_unit_zero (S := S1x128) hz2]
  funext j
  obtain ⟨u, p, q, rfl⟩ : ∃ (u : Fin 1) (p : Fin 2048) (q : Fin 128), j = ix3 u p q := ⟨j 0, j 1, j 2, eq_ix3 j⟩
  obtain rfl : u = 0 := Subsingleton.elim _ _
  refine (ctx_stored_apply (iblk m c 0 t) (iblk m c 1 t) (iblk m c 2 t) (iblk m c 3 t) p q).trans ?_
  show _ = ctxG m c (((cfg0.win 6).blk t).view.emb (ix3 (0 : Fin 1) p q))
  rw [emb6 t p q]
  show _ = ctxAt (V m c main_arg0) (V m c main_arg1) (V m c main_arg2) (m ((c : Thread nD τ).loc main_arg3)) (bat t) p q
  unfold ctxAt
  have hX : X (iblk m c 0 t) = fun c' k => V m c main_arg0 (ix3 (bat t) c' k) :=
    funext fun c' => funext fun k => blk0_apply m c t c' k
  have hY : Y (iblk m c 1 t) = fun r k => V m c main_arg1 (ix3 (bat t) r k) :=
    funext fun r => funext fun k => blk1_apply m c t r k
  have hW : (fun f => iblk m c 2 t (ix2 q f)) = fun f => V m c main_arg2 (ix2 q f) :=
    funext fun f => blk2_apply m c t q f
  rw [hX, hY, hW, blk3_apply m c t q]

/-- What point t writes back to the response output is block t of the response output function. -/
theorem flushed7_eq (c : Dev nD) (t : Fin cfg0.N) :
    (dats m 0 c).flushed 7 t = ((cfg0.win 7).blk t).view.read (Elt Ideal) (rspG m c) := by
  rw [Cert.KernelIdeal.Value.flushed7]
  unfold out0_7
  rw [View.canon_unit_zero hz3]
  simp only [View.ld_unit_zero (S := S1x2048x256) hz3, View.ld_unit_zero (S := S1x512x256) hz3,
    View.ld_unit_zero (S := S128x1024) hz2, View.ld_unit_zero (S := S1x128) hz2]
  funext j
  obtain ⟨u, p, q, rfl⟩ : ∃ (u : Fin 1) (p : Fin 512) (q : Fin 128), j = ix3 u p q := ⟨j 0, j 1, j 2, eq_ix3 j⟩
  obtain rfl : u = 0 := Subsingleton.elim _ _
  refine (rsp_stored_apply (iblk m c 0 t) (iblk m c 1 t) (iblk m c 4 t) (iblk m c 5 t) p q).trans ?_
  show _ = rspG m c (((cfg0.win 7).blk t).view.emb (ix3 (0 : Fin 1) p q))
  rw [emb7 t p q]
  show _ = rspAt (V m c main_arg0) (V m c main_arg1) (V m c main_arg4) (m ((c : Thread nD τ).loc main_arg5)) (bat t) p q
  unfold rspAt
  have hX : X (iblk m c 0 t) = fun c' k => V m c main_arg0 (ix3 (bat t) c' k) :=
    funext fun c' => funext fun k => blk0_apply m c t c' k
  have hY : Y (iblk m c 1 t) = fun r k => V m c main_arg1 (ix3 (bat t) r k) :=
    funext fun r => funext fun k => blk1_apply m c t r k
  have hW : (fun f => iblk m c 4 t (ix2 q f)) = fun f => V m c main_arg4 (ix2 q f) :=
    funext fun f => blk4_apply m c t q f
  rw [hX, hY, hW, blk5_apply m c t q]

/-- An index of the context output is in point t's block iff each coordinate is in the block's range. -/
theorem mem_blk6 (t : Fin cfg0.N) (i : S32x2048x128.Idx) :
    i ∈ ((cfg0.win 6).blk t).view.set ↔ ∀ a : Fin 3, win0_6.index t a * S1x2048x128.size a ≤ (i a).val
      ∧ (i a).val < win0_6.index t a * S1x2048x128.size a + S1x2048x128.size a := by
  show i ∈ ((View.whole main_v2_0).slice (win0_6.rect t)).set ↔ _
  rw [View.set_slice_whole, Rect.mem_set_unit]
  exact Iff.rfl

/-- An index of the response output is in point t's block iff each coordinate is in the block's range. -/
theorem mem_blk7 (t : Fin cfg0.N) (i : S32x512x128.Idx) :
    i ∈ ((cfg0.win 7).blk t).view.set ↔ ∀ a : Fin 3, win0_7.index t a * S1x512x128.size a ≤ (i a).val
      ∧ (i a).val < win0_7.index t a * S1x512x128.size a + S1x512x128.size a := by
  show i ∈ ((View.whole main_v2_1).slice (win0_7.rect t)).set ↔ _
  rw [View.set_slice_whole, Rect.mem_set_unit]
  exact Iff.rfl

/-- Every index of the context output is in the block of the point that is its batch coordinate. -/
theorem cover6 (i : S32x2048x128.Idx) :
    ∃ t : Fin cfg0.N, (cfg0.win 6).flush t = true ∧ i ∈ ((cfg0.win 6).blk t).view.set := by
  have hi0 : (i 0).val < 32 := (i 0).isLt
  have hi1 : (i 1).val < 2048 := (i 1).isLt
  have hi2 : (i 2).val < 128 := (i 2).isLt
  have ht : (i 0).val < cfg0.N := lt_of_lt_of_eq hi0 N_0.symm
  obtain ⟨-, -, -, -, -, -, ⟨e0, e1, e2⟩, -⟩ := idx_facts ⟨(i 0).val, ht⟩
  refine ⟨⟨(i 0).val, ht⟩, flush0_6 _, ?_⟩
  rw [mem_blk6]
  intro a
  match a with
  | ⟨0, _⟩ =>
    show win0_6.index ⟨(i 0).val, ht⟩ (0 : Fin 3) * 1 ≤ (i 0).val ∧ (i 0).val < win0_6.index ⟨(i 0).val, ht⟩ (0 : Fin 3) * 1 + 1
    have : (⟨(i 0).val, ht⟩ : Fin cfg0.N).val = (i 0).val := rfl
    omega
  | ⟨1, _⟩ =>
    show win0_6.index ⟨(i 0).val, ht⟩ (1 : Fin 3) * 2048 ≤ (i 1).val ∧ (i 1).val < win0_6.index ⟨(i 0).val, ht⟩ (1 : Fin 3) * 2048 + 2048
    omega
  | ⟨2, _⟩ =>
    show win0_6.index ⟨(i 0).val, ht⟩ (2 : Fin 3) * 128 ≤ (i 2).val ∧ (i 2).val < win0_6.index ⟨(i 0).val, ht⟩ (2 : Fin 3) * 128 + 128
    omega

/-- Every index of the response output is in the block of the point that is its batch coordinate. -/
theorem cover7 (i : S32x512x128.Idx) :
    ∃ t : Fin cfg0.N, (cfg0.win 7).flush t = true ∧ i ∈ ((cfg0.win 7).blk t).view.set := by
  have hi0 : (i 0).val < 32 := (i 0).isLt
  have hi1 : (i 1).val < 512 := (i 1).isLt
  have hi2 : (i 2).val < 128 := (i 2).isLt
  have ht : (i 0).val < cfg0.N := lt_of_lt_of_eq hi0 N_0.symm
  obtain ⟨-, -, -, -, -, -, -, ⟨e0, e1, e2⟩⟩ := idx_facts ⟨(i 0).val, ht⟩
  refine ⟨⟨(i 0).val, ht⟩, flush0_7 _, ?_⟩
  rw [mem_blk7]
  intro a
  match a with
  | ⟨0, _⟩ =>
    show win0_7.index ⟨(i 0).val, ht⟩ (0 : Fin 3) * 1 ≤ (i 0).val ∧ (i 0).val < win0_7.index ⟨(i 0).val, ht⟩ (0 : Fin 3) * 1 + 1
    have : (⟨(i 0).val, ht⟩ : Fin cfg0.N).val = (i 0).val := rfl
    omega
  | ⟨1, _⟩ =>
    show win0_7.index ⟨(i 0).val, ht⟩ (1 : Fin 3) * 512 ≤ (i 1).val ∧ (i 1).val < win0_7.index ⟨(i 0).val, ht⟩ (1 : Fin 3) * 512 + 512
    omega
  | ⟨2, _⟩ =>
    show win0_7.index ⟨(i 0).val, ht⟩ (2 : Fin 3) * 128 ≤ (i 2).val ∧ (i 2).val < win0_7.index ⟨(i 0).val, ht⟩ (2 : Fin 3) * 128 + 128
    omega

/-- After the run the context output array is the context output function of the arrays the region finds. -/
theorem final6 (c : Dev nD) : (dats m 0 c).arrAt 6 cfg0.N = ctxG m c :=
  (dats m 0 c).arrAt_eq_of_cover 6 (ctxG m c) (fun t _ => flushed6_eq m c t) cover6

/-- After the run the response output array is the response output function of the arrays the region finds. -/
theorem final7 (c : Dev nD) : (dats m 0 c).arrAt 7 cfg0.N = rspG m c :=
  (dats m 0 c).arrAt_eq_of_cover 7 (rspG m c) (fun t _ => flushed7_eq m c t) cover7

/-- The kernel's run: both output arrays at their functions of the ARGUMENT arrays, the arguments unchanged. -/
theorem run : θ_run defs (onTc (τ := τ) (main (F := Ideal))) ⟨m, fun _ => 0, ρ⟩ fun r => ∀ c : Dev nD,
      r.2.mem ((c : Thread nD τ).loc main_v2_0)
        = ctxOut (m ((c : Thread nD τ).loc main_arg0)) (m ((c : Thread nD τ).loc main_arg1)) (m ((c : Thread nD τ).loc main_arg2))
            (m ((c : Thread nD τ).loc main_arg3))
      ∧ r.2.mem ((c : Thread nD τ).loc main_v2_1)
        = rspOut (m ((c : Thread nD τ).loc main_arg0)) (m ((c : Thread nD τ).loc main_arg1)) (m ((c : Thread nD τ).loc main_arg4))
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨by rw [(h c).1, final6 m c]; show ctxOut _ _ _ _ = _; rw [V_main_arg0 m c, V_main_arg1 m c, V_main_arg2 m c],
     by rw [(h c).2.1, final7 m c]; show rspOut _ _ _ _ = _; rw [V_main_arg0 m c, V_main_arg1 m c, V_main_arg4 m c],
     (h c).2.2⟩)
    (Cert.KernelIdeal.Value.run_blocks m ρ)

end Cert.CoAttn.Blocks

end
-- ==== Proof.LibRunWindows.lean ====
/-
  A long straight line of host operations, taken window by window.

  A printed host program past sixty statements comes as consecutive windows. Each window is a list of operations;
  the whole line is their concatenation. What a fold over the whole line does to the buffers is then read off the
  windows one at a time:

  * folding the operations of `l₁ ++ l₂` over buffer contents is folding `l₁`, then `l₂` (`after_append`);
  * so a buffer that neither window writes is kept by the concatenation (`kept_append`);
  * a property of every operation (its buffers are the TensorCore's; it determines its result) holds of the
    concatenation when it holds of both windows (`forall_mem_append`, `forall_append`).
-/
import Idealize.ShloMosaic.Lib.StableHlo.Run

noncomputable section

namespace Idealize.ShloMosaic.StableHlo

variable {τ : Topo} {sig : RefSig} {Val : EltTy → Type}

/-- Folding over a concatenation: first the first list, then the second. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer kept by two windows, whatever the contents they start from, is kept by their concatenation. -/
theorem kept_append {l₁ l₂ : List (HloOp τ sig Val)} {b : DevRef τ sig}
    (h₁ : ∀ V : Valuation τ sig Val, after l₁ V b = V b) (h₂ : ∀ V : Valuation τ sig Val, after l₂ V b = V b)
    (V : Valuation τ sig Val) : after (l₁ ++ l₂) V b = V b := by
  rw [after_append, h₂, h₁]

/-- A property of every operation of two windows is one of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op := by
  intro op h
  rcases List.mem_append.mp h with h | h
  · exact h₁ op h
  · exact h₂ op h

/-- The same, for the conjunction over the list that the run's side condition is stated with. -/
theorem forall_append {p : HloOp τ sig Val → Prop} {l₁ l₂ : List (HloOp τ sig Val)}
    (h₁ : l₁.Forall p) (h₂ : l₂.Forall p) : (l₁ ++ l₂).Forall p :=
  List.forall_iff_forall_mem.mpr
    (forall_mem_append (List.forall_iff_forall_mem.mp h₁) (List.forall_iff_forall_mem.mp h₂))

end Idealize.ShloMosaic.StableHlo

end
-- ==== Proof.RefRun.lean ====
/-
  The reference program's run, taken in two stretches around each of its two concatenations.

  The program is a straight line of 51 host operations. Each result buffer ends holding the composition of the operations
  that feed it, applied to the argument arrays. Folding the operations of a list that is cut in two is folding the first
  part and then the second, so each result is read in two steps: what the operations before a concatenation leave in the
  buffers the concatenation joins (and in the weight and bias arguments), and then the few operations from the concatenation
  on, applied to those contents. Stated against the stage functions of the reference (one function per operation), the
  first result is the stage of the context output and the second the stage of the response output; the six argument arrays
  are left as they were.
-/
import Idealize.ShloMosaic.Lib.StableHlo.Run
import proofs.«141753_j2637109920016_1_alg».proof.Proof.RefOps
import proofs.«141753_j2637109920016_1_alg».proof.Proof.RefRead
import proofs.«141753_j2637109920016_1_alg».proof.Proof.LibRunWindows

set_option maxRecDepth 16384

noncomputable section

namespace Cert.ReferenceIdeal.RunW

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## Before the first concatenation (the first 33 operations) -/

theorem a_arg0 : after (List.take 33 (ops (F := F))) (launchContents m c) (Proc.devRef .tc main_arg0) = (m ((c.tc : Thread nD τ).loc main_arg0)) := by
  simp only [ops, List.take_succ_cons, List.take_zero]
  after_results_simp <;> rfl

theorem a_arg2 : after (List.take 33 (ops (F := F))) (launchContents m c) (Proc.devRef .tc main_arg2) = (m ((c.tc : Thread nD τ).loc main_arg2)) := by
  simp only [ops, List.take_succ_cons, List.take_zero]
  after_results_simp <;> rfl

theorem a_arg3 : after (List.take 33 (ops (F := F))) (launchContents m c) (Proc.devRef .tc main_arg3) = (m ((c.tc : Thread nD τ).loc main_arg3)) := by
  simp only [ops, List.take_succ_cons, List.take_zero]
  after_results_simp <;> rfl

theorem a_v23 : after (List.take 33 (ops (F := F))) (launchContents m c) (Proc.devRef .tc main_v23) = val_main_v23 (F := F) (m ((c.tc : Thread nD τ).loc main_arg0)) (m ((c.tc : Thread nD τ).loc main_arg1)) := by
  simp only [ops, List.take_succ_cons, List.take_zero]
  after_results_simp <;> rfl

theorem a_v25 : after (List.take 33 (ops (F := F))) (launchContents m c) (Proc.devRef .tc main_v25) = val_main_v25 (F := F) (m ((c.tc : Thread nD τ).loc main_arg0)) (m ((c.tc : Thread nD τ).loc main_arg1)) := by
  simp only [ops, List.take_succ_cons, List.take_zero]
  after_results_simp <;> rfl

theorem a_v26 : after (List.take 33 (ops (F := F))) (launchContents m c) (Proc.devRef .tc main_v26) = val_main_v26 (F := F) (m ((c.tc : Thread nD τ).loc main_arg0)) (m ((c.tc : Thread nD τ).loc main_arg1)) := by
  simp only [ops, List.take_succ_cons, List.take_zero]
  after_results_simp <;> rfl

/-! ## Before the second concatenation (the first 36 operations) -/

theorem b_arg1 : after (List.take 36 (ops (F := F))) (launchContents m c) (Proc.devRef .tc main_arg1) = (m ((c.tc : Thread nD τ).loc main_arg1)) := by
  simp only [ops, List.take_succ_cons, List.take_zero]
  after_results_simp <;> rfl

theorem b_arg4 : after (List.take 36 (ops (F := F))) (launchContents m c) (Proc.devRef .tc main_arg4) = (m ((c.tc : Thread nD τ).loc main_arg4)) := by
  simp only [ops, List.take_succ_cons, List.take_zero]
  after_results_simp <;> rfl

theorem b_arg5 : after (List.take 36 (ops (F := F))) (launchContents m c) (Proc.devRef .tc main_arg5) = (m ((c.tc : Thread nD τ).loc main_arg5)) := by
  simp only [ops, List.take_succ_cons, List.take_zero]
  after_results_simp <;> rfl

theorem b_v24 : after (List.take 36 (ops (F := F))) (launchContents m c) (Proc.devRef .tc main_v24) = val_main_v24 (F := F) (m ((c.tc : Thread nD τ).loc main_arg0)) (m ((c.tc : Thread nD τ).loc main_arg1)) := by
  simp only [ops, List.take_succ_cons, List.take_zero]
  after_results_simp <;> rfl

theorem b_v28 : after (List.take 36 (ops (F := F))) (launchContents m c) (Proc.devRef .tc main_v28) = val_main_v28 (F := F) (m ((c.tc : Thread nD τ).loc main_arg0)) (m ((c.tc : Thread nD τ).loc main_arg1)) := by
  simp only [ops, List.take_succ_cons, List.take_zero]
  after_results_simp <;> rfl

theorem b_v29 : after (List.take 36 (ops (F := F))) (launchContents m c) (Proc.devRef .tc main_v29) = val_main_v29 (F := F) (m ((c.tc : Thread nD τ).loc main_arg0)) (m ((c.tc : Thread nD τ).loc main_arg1)) := by
  simp only [ops, List.take_succ_cons, List.take_zero]
  after_results_simp <;> rfl

/-! ## The two results -/

set_option maxHeartbeats 2000000 in
/-- The first result is the stage of the context output. -/
theorem res35 : after (ops (F := F)) (launchContents m c) (Proc.devRef .tc main_v35)
    = val_main_v35 (F := F) (m ((c.tc : Thread nD τ).loc main_arg0)) (m ((c.tc : Thread nD τ).loc main_arg1)) (m ((c.tc : Thread nD τ).loc main_arg2)) (m ((c.tc : Thread nD τ).loc main_arg3)) := by
  rw [← List.take_append_drop 33 (ops (F := F)), after_append]
  have h0 := a_arg0 m c
  have h2 := a_arg2 m c
  have h3 := a_arg3 m c
  have h23 := a_v23 m c
  have h25 := a_v25 m c
  have h26 := a_v26 m c
  generalize after (List.take 33 (ops (F := F))) (launchContents m c) = V₁ at h0 h2 h3 h23 h25 h26 ⊢
  simp only [ops, List.drop_succ_cons, List.drop_zero]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [h0, h2, h3, h23, h25, h26]
  rfl

set_option maxHeartbeats 2000000 in
/-- The second result is the stage of the response output. -/
theorem res40 : after (ops (F := F)) (launchContents m c) (Proc.devRef .tc main_v40)
    = val_main_v40 (F := F) (m ((c.tc : Thread nD τ).loc main_arg0)) (m ((c.tc : Thread nD τ).loc main_arg1)) (m ((c.tc : Thread nD τ).loc main_arg4)) (m ((c.tc : Thread nD τ).loc main_arg5)) := by
  rw [← List.take_append_drop 36 (ops (F := F)), after_append]
  have h1 := b_arg1 m c
  have h4 := b_arg4 m c
  have h5 := b_arg5 m c
  have h24 := b_v24 m c
  have h28 := b_v28 m c
  have h29 := b_v29 m c
  generalize after (List.take 36 (ops (F := F))) (launchContents m c) = V₁ at h1 h4 h5 h24 h28 h29 ⊢
  simp only [ops, List.drop_succ_cons, List.drop_zero]
  simp (disch := decide) only [after_cons, after_nil,
    nullary_result', unary_result', binary_result', ternary_result', quaternary_result', reshape_result', nary4_result',
    unaryIndexed_result', binaryIndexed_result',
    nullary_result_ne', unary_result_ne', binary_result_ne', ternary_result_ne', quaternary_result_ne', reshape_result_ne',
    nary_result_ne', unaryIndexed_result_ne', binaryIndexed_result_ne']
  rw [h1, h4, h5, h24, h28, h29]
  rfl

/-! ## The run -/

set_option maxHeartbeats 2000000 in
/-- Every weakly fair execution of the reference terminates with the two results at their stages of the argument arrays and the
    argument arrays unchanged. -/
theorem run (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v40) = val_main_v40 (F := F) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v35).trans (res35 m c),
      (h c main_v40).trans (res40 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunW

end
-- ==== Proof.LibBatchMax.lean ====
/-
  Maximum reductions of a stack of matrices on the host, at the ideal values.
  For an [n0, n1, n2] array:
    * reduced along its last axis into [n0, n1], the host's maximum reduction reads, at (b, c), the fold of max over r < n2 of
      the entries (b, c, r), started from the initial value;
    * reduced along its middle axis into [n0, n2], it reads, at (b, r), the fold of max over c < n1 of the entries (b, c, r),
      started from the initial value.
  The extents are variables, so nothing here is computed on a literal shape.
-/
import Idealize.ShloMosaic.PureOps.Ideal.Laws
import Idealize.ShloMosaic.PureOps.Reduce
import Idealize.ShloMosaic.Lib.ValueIdx

noncomputable section

namespace Cert.LibBatchMax

open Idealize.ShloMosaic Idealize.ShloMosaic.ValueIdx

variable {n0 n1 n2 : ℕ}

/-- Over position (b, c) of the reduced array, with r inserted on the last axis, lies the index (b, c, r). -/
theorem lift_last (h : (⟨3, ![n0, n1, n2]⟩ : Shape).Reduces [2] ⟨2, ![n0, n1]⟩) (b : Fin n0) (c : Fin n1) (r : Fin n2) :
    h.lift (ix2 b c) r = ix3 b c r :=
  funext fun d => Fin.ext (by match d with | ⟨0, _⟩ => rfl | ⟨1, _⟩ => rfl | ⟨2, _⟩ => rfl)

/-- Over position (b, r) of the reduced array, with c inserted on the middle axis, lies the index (b, c, r). -/
theorem lift_mid (h : (⟨3, ![n0, n1, n2]⟩ : Shape).Reduces [1] ⟨2, ![n0, n2]⟩) (b : Fin n0) (r : Fin n2) (c : Fin n1) :
    h.lift (ix2 b r) c = ix3 b c r :=
  funext fun d => Fin.ext (by match d with | ⟨0, _⟩ => rfl | ⟨1, _⟩ => rfl | ⟨2, _⟩ => rfl)

/-- The host's maximum along the last axis. -/
theorem hostMax_last {φ : FTy} {u : Shape} (x : FVec Ideal ⟨3, ![n0, n1, n2]⟩ φ) (init : u.Idx → Ideal φ)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (b : Fin n0) (c : Fin n1) :
    Host.reduce FloatOps.maximumf x init h' hu (ix2 b c)
      = (Finset.univ : Finset (Fin n2)).fold max (init (Shape.Idx.first hu)) (fun r => x (ix3 b c r)) := by
  refine (Host.reduce_eq_fold_single FloatOps.maximumf x init h' h hu (ix2 b c)).trans ?_
  exact congrArg (Finset.fold max (init (Shape.Idx.first hu)) · (Finset.univ : Finset (Fin n2)))
    (funext fun r => congrArg x (lift_last h b c r))

/-- The host's maximum along the middle axis. -/
theorem hostMax_mid {φ : FTy} {u : Shape} (x : FVec Ideal ⟨3, ![n0, n1, n2]⟩ φ) (init : u.Idx → Ideal φ)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (r : Fin n2) :
    Host.reduce FloatOps.maximumf x init h' hu (ix2 b r)
      = (Finset.univ : Finset (Fin n1)).fold max (init (Shape.Idx.first hu)) (fun c => x (ix3 b c r)) := by
  refine (Host.reduce_eq_fold_single FloatOps.maximumf x init h' h hu (ix2 b r)).trans ?_
  exact congrArg (Finset.fold max (init (Shape.Idx.first hu)) · (Finset.univ : Finset (Fin n1)))
    (funext fun c => congrArg x (lift_mid h b r c))

end Cert.LibBatchMax

end
-- ==== Proof.RefRows.lean ====
/-
  The reference read along the response axis, for batch element b with X the context rows and Y the response rows:
  its first product at (b, c, r) is score c r; the maximum along the response axis, compared once more with −∞, is top of
  row c of the scores; subtracting it, exponentiating and dividing by the sum along the same axis gives soft of row c at r;
  the product with the response that follows is attRow.
-/
import Idealize.ShloMosaic.PureOps.Ideal.Laws
import Idealize.ShloMosaic.PureOps.Reduce
import Idealize.ShloMosaic.Lib.Pipeline.Value
import Idealize.ShloMosaic.Lib.ValueIdx
import proofs.«141753_j2637109920016_1_alg».proof.Proof.RefRead
import proofs.«141753_j2637109920016_1_alg».proof.Proof.Spec
import proofs.«141753_j2637109920016_1_alg».proof.Proof.LibBatchMax

set_option maxRecDepth 16384

noncomputable section

namespace Cert.CoAttn.Ref

open Idealize.ShloMosaic Idealize.ShloMosaic.ValueIdx Cert.ReferenceIdeal Cert.ReferenceIdeal.ReadP Cert.CoAttn

variable [Cert.ReferenceIdeal.Facts]

local macro "coords3" : term => `(funext fun a => Fin.ext (by match a with | ⟨0, _⟩ => rfl | ⟨1, _⟩ => rfl | ⟨2, _⟩ => rfl))
local macro "coords2" : term => `(funext fun a => Fin.ext (by match a with | ⟨0, _⟩ => rfl | ⟨1, _⟩ => rfl))
local macro "coords1" : term => `(funext fun a => Fin.ext (by match a with | ⟨0, _⟩ => rfl))

variable (A : (⟨S32x2048x256, .f32⟩ : BufTy).Contents (Elt Ideal)) (B : (⟨S32x512x256, .f32⟩ : BufTy).Contents (Elt Ideal))

/-- Entry-wise readings of the host's elementwise operations, stated where the entries are visibly extended reals. -/
theorem max_at {s : Shape} (x y : FVec Ideal s .f32) (i : s.Idx) : maximumf x y i = max (x i) (y i) := rfl
theorem exp_sub_at {s : Shape} (x y : FVec Ideal s .f32) (i : s.Idx) : Host.exp (subf x y) i = Ideal.exp (x i - y i) := rfl
theorem div_at {s : Shape} (x y : FVec Ideal s .f32) (i : s.Idx) : Host.divf x y i = Ideal.div (x i) (y i) := rfl
theorem relu_add_at {s : Shape} (x y z : FVec Ideal s .f32) (i : s.Idx) :
    maximumf (addf x y) z i = max (x i + y i) (z i) := rfl

/-- The context rows of batch element `b`. -/
abbrev XA (b : Fin 32) : Fin 2048 → Fin 256 → EReal := fun c k => A (ix3 b c k)
/-- The response rows of batch element `b`. -/
abbrev YB (b : Fin 32) : Fin 512 → Fin 256 → EReal := fun r k => B (ix3 b r k)

/-- The first product is the score. -/
theorem v0_at (b : Fin 32) (c : Fin 2048) (r : Fin 512) :
    val_main_v0 (F := Ideal) A B (ix3 b c r) = score (XA A b) (YB B b) c r :=
  (val_main_v0_apply A B (ix3 b c r)).trans
    (Finset.sum_congr rfl fun k _ => congr (congrArg HMul.hMul (congrArg A coords3)) (congrArg B coords3))

/-! ## Along the response axis -/

theorem v1_at (b : Fin 32) (c : Fin 2048) :
    val_main_v1 (F := Ideal) A B (ix2 b c)
      = (Finset.univ : Finset (Fin 512)).fold max lo (fun r => score (XA A b) (YB B b) c r) := by
  unfold val_main_v1
  refine (Cert.LibBatchMax.hostMax_last (val_main_v0 (F := Ideal) A B) (val_main_cst (F := Ideal))
    Facts₀.reducesTo_S32x2048x512_S32x2048_d2 (by decide) Facts₀.h_S_ b c).trans ?_
  have hi : val_main_cst (F := Ideal) (Shape.Idx.first Facts₀.h_S_) = lo := rfl
  rw [hi]
  exact congrArg (Finset.fold max lo · (Finset.univ : Finset (Fin 512))) (funext fun r => v0_at A B b c r)

theorem v3_at (b : Fin 32) (c : Fin 2048) :
    val_main_v3 (F := Ideal) A B (ix2 b c) = top (fun r => score (XA A b) (YB B b) c r) := by
  unfold val_main_v3
  refine (max_at (val_main_v2 (F := Ideal)) (val_main_v1 (F := Ideal) A B) (ix2 b c)).trans ?_
  rw [v1_at A B b c, val_main_v2_apply]
  rfl

theorem v5_at (b : Fin 32) (c : Fin 2048) (r : Fin 512) :
    val_main_v5 (F := Ideal) A B (ix3 b c r) = top (fun r' => score (XA A b) (YB B b) c r') :=
  (val_main_v5_apply A B _).trans ((val_main_v4_apply A B _).trans
    ((congrArg (val_main_v3 (F := Ideal) A B) coords2).trans (v3_at A B b c)))

theorem v7_at (b : Fin 32) (c : Fin 2048) (r : Fin 512) :
    val_main_v7 (F := Ideal) A B (ix3 b c r)
      = Ideal.exp (score (XA A b) (YB B b) c r - top (fun r' => score (XA A b) (YB B b) c r')) := by
  unfold val_main_v7 val_main_v6
  refine (exp_sub_at (val_main_v0 (F := Ideal) A B) (val_main_v5 (F := Ideal) A B) (ix3 b c r)).trans ?_
  rw [v0_at A B b c r, v5_at A B b c r]

theorem v8_at (b : Fin 32) (c : Fin 2048) :
    val_main_v8 (F := Ideal) A B (ix2 b c)
      = ∑ r : Fin 512, Ideal.exp (score (XA A b) (YB B b) c r - top (fun r' => score (XA A b) (YB B b) c r')) := by
  rw [val_main_v8_apply]
  have z : ∀ i, val_main_cst_1 (F := Ideal) i = 0 := fun _ => Ideal.ofBits_zero_f32
  rw [z, zero_add]
  exact Finset.sum_congr rfl fun r _ => (congrArg (val_main_v7 (F := Ideal) A B) coords3).trans (v7_at A B b c r)

theorem v10_at (b : Fin 32) (c : Fin 2048) (r : Fin 512) :
    val_main_v10 (F := Ideal) A B (ix3 b c r)
      = ∑ r' : Fin 512, Ideal.exp (score (XA A b) (YB B b) c r' - top (fun r'' => score (XA A b) (YB B b) c r'')) :=
  (val_main_v10_apply A B _).trans ((val_main_v9_apply A B _).trans
    ((congrArg (val_main_v8 (F := Ideal) A B) coords2).trans (v8_at A B b c)))

/-- The softmax over the response positions. -/
theorem v11_at (b : Fin 32) (c : Fin 2048) (r : Fin 512) :
    val_main_v11 (F := Ideal) A B (ix3 b c r) = soft (fun r' => score (XA A b) (YB B b) c r') r := by
  unfold val_main_v11
  refine (div_at (val_main_v7 (F := Ideal) A B) (val_main_v10 (F := Ideal) A B) (ix3 b c r)).trans ?_
  rw [v7_at A B b c r, v10_at A B b c r]
  rfl

/-- The context rows attended over the response rows. -/
theorem v23_at (b : Fin 32) (c : Fin 2048) (k : Fin 256) :
    val_main_v23 (F := Ideal) A B (ix3 b c k) = attRow (XA A b) (YB B b) c k :=
  (val_main_v23_apply A B (ix3 b c k)).trans
    (Finset.sum_congr rfl fun r _ => congr
      (congrArg HMul.hMul ((congrArg (val_main_v11 (F := Ideal) A B) coords3).trans (v11_at A B b c r)))
      (congrArg B coords3))

end Cert.CoAttn.Ref

end
-- ==== Proof.RefCols.lean ====
/-
  The reference read along the context axis: the maximum of the scores down column r, compared once more with −∞, is top of
  column r; subtracting it, exponentiating and dividing by the sum down the column gives soft of column r at c; the product
  with the context that follows is attCol.
-/
import Idealize.ShloMosaic.PureOps.Ideal.Laws
import Idealize.ShloMosaic.PureOps.Reduce
import Idealize.ShloMosaic.Lib.Pipeline.Value
import Idealize.ShloMosaic.Lib.ValueIdx
import proofs.«141753_j2637109920016_1_alg».proof.Proof.RefRead
import proofs.«141753_j2637109920016_1_alg».proof.Proof.Spec
import proofs.«141753_j2637109920016_1_alg».proof.Proof.LibBatchMax
import proofs.«141753_j2637109920016_1_alg».proof.Proof.RefRows

set_option maxRecDepth 16384

noncomputable section

namespace Cert.CoAttn.Ref

open Idealize.ShloMosaic Idealize.ShloMosaic.ValueIdx Cert.ReferenceIdeal Cert.ReferenceIdeal.ReadP Cert.CoAttn

variable [Cert.ReferenceIdeal.Facts]

local macro "coords3" : term => `(funext fun a => Fin.ext (by match a with | ⟨0, _⟩ => rfl | ⟨1, _⟩ => rfl | ⟨2, _⟩ => rfl))
local macro "coords2" : term => `(funext fun a => Fin.ext (by match a with | ⟨0, _⟩ => rfl | ⟨1, _⟩ => rfl))
local macro "coords1" : term => `(funext fun a => Fin.ext (by match a with | ⟨0, _⟩ => rfl))

variable (A : (⟨S32x2048x256, .f32⟩ : BufTy).Contents (Elt Ideal)) (B : (⟨S32x512x256, .f32⟩ : BufTy).Contents (Elt Ideal))

/-! ## Along the context axis -/

theorem v12_at (b : Fin 32) (r : Fin 512) :
    val_main_v12 (F := Ideal) A B (ix2 b r)
      = (Finset.univ : Finset (Fin 2048)).fold max lo (fun c => score (XA A b) (YB B b) c r) := by
  unfold val_main_v12
  refine (Cert.LibBatchMax.hostMax_mid (val_main_v0 (F := Ideal) A B) (val_main_cst_2 (F := Ideal))
    Facts₀.reducesTo_S32x2048x512_S32x512_d1 (by decide) Facts₀.h_S_ b r).trans ?_
  have hi : val_main_cst_2 (F := Ideal) (Shape.Idx.first Facts₀.h_S_) = lo := rfl
  rw [hi]
  exact congrArg (Finset.fold max lo · (Finset.univ : Finset (Fin 2048))) (funext fun c => v0_at A B b c r)

theorem v14_at (b : Fin 32) (r : Fin 512) :
    val_main_v14 (F := Ideal) A B (ix2 b r) = top (fun c => score (XA A b) (YB B b) c r) := by
  unfold val_main_v14
  refine (max_at (val_main_v13 (F := Ideal)) (val_main_v12 (F := Ideal) A B) (ix2 b r)).trans ?_
  rw [v12_at A B b r, val_main_v13_apply]
  rfl

theorem v16_at (b : Fin 32) (c : Fin 2048) (r : Fin 512) :
    val_main_v16 (F := Ideal) A B (ix3 b c r) = top (fun c' => score (XA A b) (YB B b) c' r) :=
  (val_main_v16_apply A B _).trans ((val_main_v15_apply A B _).trans
    ((congrArg (val_main_v14 (F := Ideal) A B) coords2).trans (v14_at A B b r)))

theorem v18_at (b : Fin 32) (c : Fin 2048) (r : Fin 512) :
    val_main_v18 (F := Ideal) A B (ix3 b c r)
      = Ideal.exp (score (XA A b) (YB B b) c r - top (fun c' => score (XA A b) (YB B b) c' r)) := by
  unfold val_main_v18 val_main_v17
  refine (exp_sub_at (val_main_v0 (F := Ideal) A B) (val_main_v16 (F := Ideal) A B) (ix3 b c r)).trans ?_
  rw [v0_at A B b c r, v16_at A B b c r]

theorem v19_at (b : Fin 32) (r : Fin 512) :
    val_main_v19 (F := Ideal) A B (ix2 b r)
      = ∑ c : Fin 2048, Ideal.exp (score (XA A b) (YB B b) c r - top (fun c' => score (XA A b) (YB B b) c' r)) := by
  rw [val_main_v19_apply]
  have z : ∀ i, val_main_cst_4 (F := Ideal) i = 0 := fun _ => Ideal.ofBits_zero_f32
  rw [z, zero_add]
  exact Finset.sum_congr rfl fun c _ => (congrArg (val_main_v18 (F := Ideal) A B) coords3).trans (v18_at A B b c r)

theorem v21_at (b : Fin 32) (c : Fin 2048) (r : Fin 512) :
    val_main_v21 (F := Ideal) A B (ix3 b c r)
      = ∑ c' : Fin 2048, Ideal.exp (score (XA A b) (YB B b) c' r - top (fun c'' => score (XA A b) (YB B b) c'' r)) :=
  (val_main_v21_apply A B _).trans ((val_main_v20_apply A B _).trans
    ((congrArg (val_main_v19 (F := Ideal) A B) coords2).trans (v19_at A B b r)))

/-- The softmax over the context positions. -/
theorem v22_at (b : Fin 32) (c : Fin 2048) (r : Fin 512) :
    val_main_v22 (F := Ideal) A B (ix3 b c r) = soft (fun c' => score (XA A b) (YB B b) c' r) c := by
  unfold val_main_v22
  refine (div_at (val_main_v18 (F := Ideal) A B) (val_main_v21 (F := Ideal) A B) (ix3 b c r)).trans ?_
  rw [v18_at A B b c r, v21_at A B b c r]
  rfl

/-- The response rows attended over the context rows. -/
theorem v24_at (b : Fin 32) (r : Fin 512) (k : Fin 256) :
    val_main_v24 (F := Ideal) A B (ix3 b r k) = attCol (XA A b) (YB B b) r k :=
  (val_main_v24_apply A B (ix3 b r k)).trans
    (Finset.sum_congr rfl fun c _ => congr
      (congrArg HMul.hMul ((congrArg (val_main_v22 (F := Ideal) A B) coords3).trans (v22_at A B b c r)))
      (congrArg A coords3))

end Cert.CoAttn.Ref

end
-- ==== Proof.RefOut.lean ====
/-
  The reference's two results are the specification: the concatenation of (x, a, x − a, x·a) along the feature axis,
  contracted with weight row h over all 1024 positions, plus the bias, clipped at 0, is fuse — a sum over 1024 positions is the
  sum of the sums over its four quarters. So the first result is the context output function of the arguments and the second
  the response output function.
-/
import Idealize.ShloMosaic.PureOps.Ideal.Laws
import Idealize.ShloMosaic.PureOps.Reduce
import Idealize.ShloMosaic.Lib.Pipeline.Value
import Idealize.ShloMosaic.Lib.ValueIdx
import proofs.«141753_j2637109920016_1_alg».proof.Proof.RefRead
import proofs.«141753_j2637109920016_1_alg».proof.Proof.Spec
import proofs.«141753_j2637109920016_1_alg».proof.Proof.RefRows
import proofs.«141753_j2637109920016_1_alg».proof.Proof.RefCols

set_option maxRecDepth 16384

noncomputable section

namespace Cert.CoAttn.Ref

open Idealize.ShloMosaic Idealize.ShloMosaic.ValueIdx Cert.ReferenceIdeal Cert.ReferenceIdeal.ReadP Cert.CoAttn

variable [Cert.ReferenceIdeal.Facts]

local macro "coords3" : term => `(funext fun a => Fin.ext (by match a with | ⟨0, _⟩ => rfl | ⟨1, _⟩ => rfl | ⟨2, _⟩ => rfl))
local macro "coords2" : term => `(funext fun a => Fin.ext (by match a with | ⟨0, _⟩ => rfl | ⟨1, _⟩ => rfl))
local macro "coords1" : term => `(funext fun a => Fin.ext (by match a with | ⟨0, _⟩ => rfl))

variable (A : (⟨S32x2048x256, .f32⟩ : BufTy).Contents (Elt Ideal)) (B : (⟨S32x512x256, .f32⟩ : BufTy).Contents (Elt Ideal))

/-! ## The concatenation and the projection -/

/-- Four arrays with 256 features joined along the feature axis: position k of quarter j reads piece j at k. -/
theorem cat4_at {n0 n1 : ℕ} (u0 u1 u2 u3 : (⟨3, ![n0, n1, 256]⟩ : Shape).Idx → EReal)
    (h : Shape.Concatenates ([⟨(⟨3, ![n0, n1, 256]⟩ : Shape), u0⟩, ⟨(⟨3, ![n0, n1, 256]⟩ : Shape), u1⟩,
      ⟨(⟨3, ![n0, n1, 256]⟩ : Shape), u2⟩, (⟨(⟨3, ![n0, n1, 256]⟩ : Shape), u3⟩ : (s : Shape) × (s.Idx → EReal))].map (·.1))
      ⟨3, ![n0, n1, 1024]⟩ 2)
    (b : Fin n0) (c : Fin n1) (k : Fin 256) :
    (concatenate ⟨3, ![n0, n1, 1024]⟩ 2 [⟨⟨3, ![n0, n1, 256]⟩, u0⟩, ⟨⟨3, ![n0, n1, 256]⟩, u1⟩, ⟨⟨3, ![n0, n1, 256]⟩, u2⟩,
        ⟨⟨3, ![n0, n1, 256]⟩, u3⟩] h (ix3 b c (seg 0 k)) = u0 (ix3 b c k))
    ∧ (concatenate ⟨3, ![n0, n1, 1024]⟩ 2 [⟨⟨3, ![n0, n1, 256]⟩, u0⟩, ⟨⟨3, ![n0, n1, 256]⟩, u1⟩, ⟨⟨3, ![n0, n1, 256]⟩, u2⟩,
        ⟨⟨3, ![n0, n1, 256]⟩, u3⟩] h (ix3 b c (seg 1 k)) = u1 (ix3 b c k))
    ∧ (concatenate ⟨3, ![n0, n1, 1024]⟩ 2 [⟨⟨3, ![n0, n1, 256]⟩, u0⟩, ⟨⟨3, ![n0, n1, 256]⟩, u1⟩, ⟨⟨3, ![n0, n1, 256]⟩, u2⟩,
        ⟨⟨3, ![n0, n1, 256]⟩, u3⟩] h (ix3 b c (seg 2 k)) = u2 (ix3 b c k))
    ∧ (concatenate ⟨3, ![n0, n1, 1024]⟩ 2 [⟨⟨3, ![n0, n1, 256]⟩, u0⟩, ⟨⟨3, ![n0, n1, 256]⟩, u1⟩, ⟨⟨3, ![n0, n1, 256]⟩, u2⟩,
        ⟨⟨3, ![n0, n1, 256]⟩, u3⟩] h (ix3 b c (seg 3 k)) = u3 (ix3 b c k)) := by
  have hi : ∀ (j : Fin 4) (bb : Fin 3), bb.cast (rfl : (3 : ℕ) = 3) ≠ (2 : Fin 3) →
      ((ix3 b c k : (⟨3, ![n0, n1, 256]⟩ : Shape).Idx) bb).val
        = ((ix3 b c (seg j k) : (⟨3, ![n0, n1, 1024]⟩ : Shape).Idx) (bb.cast rfl)).val := fun j bb hb => by
    match bb with
    | ⟨0, _⟩ => rfl
    | ⟨1, _⟩ => rfl
    | ⟨2, _⟩ => exact absurd rfl hb
  refine ⟨?_, ?_, ?_, ?_⟩
  · exact concatenate_apply_piece 2 _ h _ 0 (by show (0 : ℕ) < 4; decide) _ u0 rfl rfl 0 rfl (ix3 b c k) (hi 0) (by show 0 + k.val = 256 * 0 + k.val; omega)
  · exact concatenate_apply_piece 2 _ h _ 1 (by show (1 : ℕ) < 4; decide) _ u1 rfl rfl 256 rfl (ix3 b c k) (hi 1) (by show 256 + k.val = 256 * 1 + k.val; omega)
  · exact concatenate_apply_piece 2 _ h _ 2 (by show (2 : ℕ) < 4; decide) _ u2 rfl rfl 512 rfl (ix3 b c k) (hi 2) (by show 512 + k.val = 256 * 2 + k.val; omega)
  · exact concatenate_apply_piece 2 _ h _ 3 (by show (3 : ℕ) < 4; decide) _ u3 rfl rfl 768 rfl (ix3 b c k) (hi 3) (by show 768 + k.val = 256 * 3 + k.val; omega)

variable (W : (⟨S128x1024, .f32⟩ : BufTy).Contents (Elt Ideal)) (bias : (⟨S128, .f32⟩ : BufTy).Contents (Elt Ideal))

/-- The first result at an entry. -/
theorem v35_at (b : Fin 32) (c : Fin 2048) (h : Fin 128) :
    val_main_v35 (F := Ideal) A B W bias (ix3 b c h) = ctxAt A B W bias b c h := by
  have hc := fun k => cat4_at A (val_main_v23 (F := Ideal) A B) (val_main_v25 (F := Ideal) A B)
    (val_main_v26 (F := Ideal) A B) Facts₀.concatenates_S32x2048x256_S32x2048x256_S32x2048x256_S32x2048x256_S32x2048x1024_d2 b c k
  have hb : val_main_v33 (F := Ideal) bias (ix3 b c h) = bias (ix1 h) :=
    (val_main_v33_apply bias _).trans ((val_main_v32_apply bias _).trans (congrArg bias coords1))
  have hz : val_main_call0_v0 (F := Ideal) (ix3 b c h) = zr := val_main_call0_v0_apply _
  have hd : val_main_v31 (F := Ideal) A B W (ix3 b c h)
      = ∑ f : Fin 1024, val_main_v27 (F := Ideal) A B (ix3 b c f) * W (ix2 h f) :=
    (val_main_v31_apply A B W (ix3 b c h)).trans
      (Finset.sum_congr rfl fun f _ => congr (congrArg HMul.hMul (congrArg (val_main_v27 (F := Ideal) A B) coords3)) (congrArg W coords2))
  unfold val_main_v35 val_main_v34
  refine (relu_add_at (val_main_v31 (F := Ideal) A B W) (val_main_v33 (F := Ideal) bias) (val_main_call0_v0 (F := Ideal)) (ix3 b c h)).trans ?_
  rw [hd, hb, hz]
  unfold ctxAt
  exact fuse_eq_of_cat (XA A b c) (attRow (XA A b) (YB B b) c) (fun f => W (ix2 h f)) (bias (ix1 h))
    (fun f => val_main_v27 (F := Ideal) A B (ix3 b c f))
    (fun k => (hc k).1)
    (fun k => (hc k).2.1.trans (v23_at A B b c k))
    (fun k => (hc k).2.2.1.trans (congrArg (A (ix3 b c k) - ·) (v23_at A B b c k)))
    (fun k => (hc k).2.2.2.trans (congrArg (A (ix3 b c k) * ·) (v23_at A B b c k)))

variable (W' : (⟨S128x1024, .f32⟩ : BufTy).Contents (Elt Ideal)) (bias' : (⟨S128, .f32⟩ : BufTy).Contents (Elt Ideal))

/-- The second result at an entry. -/
theorem v40_at (b : Fin 32) (r : Fin 512) (h : Fin 128) :
    val_main_v40 (F := Ideal) A B W' bias' (ix3 b r h) = rspAt A B W' bias' b r h := by
  have hc := fun k => cat4_at B (val_main_v24 (F := Ideal) A B) (val_main_v28 (F := Ideal) A B)
    (val_main_v29 (F := Ideal) A B) Facts₀.concatenates_S32x512x256_S32x512x256_S32x512x256_S32x512x256_S32x512x1024_d2 b r k
  have hb : val_main_v38 (F := Ideal) bias' (ix3 b r h) = bias' (ix1 h) :=
    (val_main_v38_apply bias' _).trans ((val_main_v37_apply bias' _).trans (congrArg bias' coords1))
  have hz : val_main_call1_v0 (F := Ideal) (ix3 b r h) = zr := val_main_call1_v0_apply _
  have hd : val_main_v36 (F := Ideal) A B W' (ix3 b r h)
      = ∑ f : Fin 1024, val_main_v30 (F := Ideal) A B (ix3 b r f) * W' (ix2 h f) :=
    (val_main_v36_apply A B W' (ix3 b r h)).trans
      (Finset.sum_congr rfl fun f _ => congr (congrArg HMul.hMul (congrArg (val_main_v30 (F := Ideal) A B) coords3)) (congrArg W' coords2))
  unfold val_main_v40 val_main_v39
  refine (relu_add_at (val_main_v36 (F := Ideal) A B W') (val_main_v38 (F := Ideal) bias') (val_main_call1_v0 (F := Ideal)) (ix3 b r h)).trans ?_
  rw [hd, hb, hz]
  unfold rspAt
  exact fuse_eq_of_cat (YB B b r) (attCol (XA A b) (YB B b) r) (fun f => W' (ix2 h f)) (bias' (ix1 h))
    (fun f => val_main_v30 (F := Ideal) A B (ix3 b r f))
    (fun k => (hc k).1)
    (fun k => (hc k).2.1.trans (v24_at A B b r k))
    (fun k => (hc k).2.2.1.trans (congrArg (B (ix3 b r k) - ·) (v24_at A B b r k)))
    (fun k => (hc k).2.2.2.trans (congrArg (B (ix3 b r k) * ·) (v24_at A B b r k)))

/-- The first result is the context output function of the arguments. -/
theorem ctx_eq : val_main_v35 (F := Ideal) A B W bias = ctxOut A B W bias := by
  funext i
  obtain ⟨b, c, h, rfl⟩ : ∃ (b : Fin 32) (c : Fin 2048) (h : Fin 128), i = ix3 b c h := ⟨i 0, i 1, i 2, eq_ix3 i⟩
  exact (v35_at A B W bias b c h).trans (ctxOut_apply A B W bias b c h).symm

/-- The second result is the response output function of the arguments. -/
theorem rsp_eq : val_main_v40 (F := Ideal) A B W' bias' = rspOut A B W' bias' := by
  funext i
  obtain ⟨b, r, h, rfl⟩ : ∃ (b : Fin 32) (r : Fin 512) (h : Fin 128), i = ix3 b r h := ⟨i 0, i 1, i 2, eq_ix3 i⟩
  exact (v40_at A B W' bias' b r h).trans (rspOut_apply A B W' bias' b r h).symm

end Cert.CoAttn.Ref

end
-- ==== Proof.lean ====
/-
  The kernel and its reference compute the same two arrays on the extended reals.

  For each of the 32 batch elements, with X the 2048 context rows and Y the 512 response rows (256 features each), both
  programs form the score matrix X·Yᵀ, take its softmax along the response axis and along the context axis, let every context
  row attend over the response rows and every response row over the context rows, and project the concatenation
  (x, a, x − a, x·a) of each row with its attended row by a 128 × 1024 weight matrix, add a bias and clip at 0.
  The kernel works on one batch element per grid point, rounds its matrix operands to a narrower format (the identity on the
  extended reals), transposes operands explicitly, and splits the 1024-wide projection into four 256-wide products that it
  adds; the reference keeps the batch axis, concatenates and contracts once. The one law that joins the two sides is that a sum
  over 1024 positions is the sum of the sums over its four quarters — regrouping in a commutative monoid, which holds on the
  extended reals without any finiteness assumption, so the precondition is never opened.

  Modules: Spec (the two output arrays as one function of the arguments, and the regrouping law); KSoft, KPay (the kernel
  body's values at an entry); KBlocks (from the grid's blocks to the whole output arrays: the kernel's run); RefOps, RefRead,
  RefRun (the reference's operations, their reading at an entry, and its run); RefRows, RefCols, RefOut (the reference's results
  are the specification). The three frames are the generated frame runs; the idealization rewrote nothing, so its conjunct is trivial.
-/
import proofs.«141753_j2637109920016_1_alg».proof.Defs
import proofs.«141753_j2637109920016_1_alg».proof.Proof.Gen.Kernel
import proofs.«141753_j2637109920016_1_alg».proof.Proof.Gen.Kernel.Skeleton
import proofs.«141753_j2637109920016_1_alg».proof.Proof.Gen.Kernel.Launch
import proofs.«141753_j2637109920016_1_alg».proof.Proof.Gen.Kernel.Points
import proofs.«141753_j2637109920016_1_alg».proof.Proof.Gen.Kernel.Frame
import proofs.«141753_j2637109920016_1_alg».proof.Proof.Gen.KernelIdeal
import proofs.«141753_j2637109920016_1_alg».proof.Proof.Gen.KernelIdeal.Skeleton
import proofs.«141753_j2637109920016_1_alg».proof.Proof.Gen.KernelIdeal.Launch
import proofs.«141753_j2637109920016_1_alg».proof.Proof.Gen.KernelIdeal.Points
import proofs.«141753_j2637109920016_1_alg».proof.Proof.Gen.KernelIdeal.Frame
import proofs.«141753_j2637109920016_1_alg».proof.Proof.Gen.ReferenceIdeal
import proofs.«141753_j2637109920016_1_alg».proof.Proof.Gen.Pre_finite_inputs
import proofs.«141753_j2637109920016_1_alg».proof.Proof.KBlocks
import proofs.«141753_j2637109920016_1_alg».proof.Proof.RefRun
import proofs.«141753_j2637109920016_1_alg».proof.Proof.RefOut
import Idealize.ShloMosaic.Adequacy
import Idealize.ShloMosaic.Init

noncomputable section

namespace Cert.Proof

open Idealize.ShloMosaic Idealize.SL.Sem

/-- The kernel at the word level runs and leaves its arguments unchanged: the generated frame run. -/
theorem frame_k : Cert.frame_Kernel := fun m ρ _ => Cert.Kernel.Gen.frame m ρ

/-- The idealized kernel runs and leaves its arguments unchanged: the generated frame run. -/
theorem frame_ki : Cert.frame_KernelIdeal := fun m ρ _ => Cert.KernelIdeal.Gen.frame m ρ

/-- The idealized reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.RunW.run (F := Ideal) m ρ)

/-- From memories that agree on the six arguments, the kernel's two output arrays and the reference's two results are the
    same two functions of the arguments. -/
theorem algebraic : Cert.algebraic_KernelIdeal_ReferenceIdeal := by
  intro m ρ m' ρ' _ hagree
  refine ⟨_, _, Cert.CoAttn.Blocks.run m ρ, ?_⟩
  refine (θ_run Cert.ReferenceIdeal.defs _ _).mono (fun _ h c => ⟨(h c).1.trans ?_, (h c).2.1.trans ?_, (h c).2.2⟩)
    (Cert.ReferenceIdeal.RunW.run (F := Ideal) m' ρ')
  · refine (Cert.CoAttn.Ref.ctx_eq _ _ _ _).trans ?_
    rw [(hagree c).1, (hagree c).2.1, (hagree c).2.2.1, (hagree c).2.2.2.1]
  · refine (Cert.CoAttn.Ref.rsp_eq _ _ _ _).trans ?_
    rw [(hagree c).1, (hagree c).2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
